-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024x64 .f32) (main_arg8 : FVec F S64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x64 .f32) (main_arg8 : FVec F S64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x64 .f32) (main_arg8 : FVec F S64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S512x1024 : Shape := ⟨2, ![512, 1024]⟩
abbrev S1x1024 : Shape := ⟨2, ![1, 1024]⟩
abbrev S4096x64 : Shape := ⟨2, ![4096, 64]⟩
abbrev S2048x1024 : Shape := ⟨2, ![2048, 1024]⟩
abbrev S512x64 : Shape := ⟨2, ![512, 64]⟩
abbrev S512x1 : Shape := ⟨2, ![512, 1]⟩
abbrev S512x2048 : Shape := ⟨2, ![512, 2048]⟩
abbrev S512 : Shape := ⟨1, ![512]⟩
abbrev S1x64 : Shape := ⟨2, ![1, 64]⟩

abbrev nBuf : Space → Nat
  | .hbm => 17
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x64, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x64, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S2048x1024, .bf16⟩
  | .local _ .vmem, ⟨20, _⟩ => ⟨S1024x64, .bf16⟩
  | .local _ .vmem, ⟨21, _⟩ => ⟨S64, .f32⟩
  | .local _ .vmem, ⟨22, _⟩ => ⟨S512x64, .f32⟩
  | .local _ .vmem, ⟨23, _⟩ => ⟨S512x64, .f32⟩
  | .local _ .vmem, ⟨24, _⟩ => ⟨S512x1, .f32⟩
  | .local _ .vmem, ⟨25, _⟩ => ⟨S512x1, .f32⟩
  | .local _ .vmem, ⟨26, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v39 : BitVec 1 := Scalar.cmpi .eq arg1 c1_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x1024.size a
  hwx1_1 : ∀ i : grid1.Coords, EltTy.bits .bf16 = 32 ∨ (Rect.block (s := S4096x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S4096x1024.size a
  hwx1_2 : ∀ i : grid1.Coords, EltTy.bits .bf16 = 32 ∨ (Rect.block (s := S4096x1024) S2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1024x64.size a
  hwx1_3 : ∀ i : grid1.Coords, EltTy.bits .bf16 = 32 ∨ (Rect.block (s := S1024x64) S1024x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x64.size a ≤ S4096x64.size a
  hwx1_5 : ∀ i : grid1.Coords, EltTy.bits .f32 = 32 ∨ (Rect.block (s := S4096x64) S512x64.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v4_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x1024, .f32⟩
  | .hbm, ⟨41, _⟩ => ⟨S4096x64, .f32⟩
  | .hbm, ⟨42, _⟩ => ⟨S1x64, .f32⟩
  | .hbm, ⟨43, _⟩ => ⟨S4096x64, .f32⟩
  | .hbm, ⟨44, _⟩ => ⟨S4096x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []
  dot_S4096x1024_S1024x64_S4096x64_1_0_0_1_n_n_wf : DotDims.WF S4096x1024 S1024x64 S4096x64 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf

class Facts : Prop extends Facts₀ where

variable [Facts]
-- ==== Proof.KRegion0.lean ====
/- REGION 0 of @main: the fused q/k/v projection call, as a class-A pipeline body, at a PARAMETER `V` — the
   TensorCore's buffer contents when the region is entered. Each window's block at a point, what the body leaves in each
   output window's staging buffer (the payload of its one whole-buffer store), the body's triple, the pipeline's proof
   data and the body obligation. Generic in the float model. -/
import proofs.«117020_j53815940219243_2_alg».proof.Proof.Gen.Kernel.Launch
import proofs.«117020_j53815940219243_2_alg».proof.Proof.Gen.Kernel.Skeleton
import proofs.«117020_j53815940219243_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): unfetched, the block index has
    not moved; every window here is uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole of a row block of the activations (and of each output block). -/
abbrev rX : Rect S512x1024 := Rect.unit (s := S512x1024) ![0, 0] S512x1024.size inb_S512x1024_S512x1024_0_0
/-- The whole of a weight matrix. -/
abbrev rW : Rect S1024x1024 := Rect.unit (s := S1024x1024) ![0, 0] S1024x1024.size inb_S1024x1024_S1024x1024_0_0
/-- The whole of a bias vector. -/
abbrev rB : Rect S1024 := Rect.unit (s := S1024) ![0] S1024.size inb_S1024_S1024_0

/-! ## What the body leaves in each output window's buffer -/

/-- The first output's staging buffer after the body, from the input windows' blocks: its one store, of the whole buffer. -/
def out0_7 (x0 : Vec F S512x1024 .f32) (x1 : Vec F S1024x1024 .bf16) (x2 : Vec F S1024 .f32) : Vec F S512x1024 .bf16 :=
  View.canon [⟨rX, k0_pay2 (View.ld x0 rX) (View.ld x1 rW) (View.ld x2 rB)⟩]
/-- The second output's. -/
def out0_8 (x0 : Vec F S512x1024 .f32) (x3 : Vec F S1024x1024 .bf16) (x4 : Vec F S1024 .f32) : Vec F S512x1024 .bf16 :=
  View.canon [⟨rX, k0_pay3 (View.ld x0 rX) (View.ld x3 rW) (View.ld x4 rB)⟩]
/-- The third output's. -/
def out0_9 (x0 : Vec F S512x1024 .f32) (x5 : Vec F S1024x1024 .bf16) (x6 : Vec F S1024 .f32) : Vec F S512x1024 .bf16 :=
  View.canon [⟨rX, k0_pay4 (View.ld x0 rX) (View.ld x5 rW) (View.ld x6 rB)⟩]

/-- One store of the whole buffer covers it. -/
theorem cover0_out (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- The kernel body on whole staging memrefs, the inputs' at read contents `xW` and the outputs' at anything, runs to
    the continuation holding the inputs' as they were and each output's at `out0_W` of the inputs'. Each output buffer is
    loaded once before it is stored, a load whose value nothing reads. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S1024x1024 .bf16) (harg4 : arg4.IsWhole)
    (arg5 : Memref sig .tc .vmem S1024 .f32) (harg5 : arg5.IsWhole)
    (arg6 : Memref sig .tc .vmem S1024x1024 .bf16) (harg6 : arg6.IsWhole)
    (arg7 : Memref sig .tc .vmem S1024 .f32) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole)
    (x0 : Vec F S512x1024 .f32) (x1 : Vec F S1024x1024 .bf16) (x2 : Vec F S1024 .f32)
    (x3 : Vec F S1024x1024 .bf16) (x4 : Vec F S1024 .f32) (x5 : Vec F S1024x1024 .bf16) (x6 : Vec F S1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2)
            ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of the projection pipeline on core `c`: the arrays as the region finds them (`V`); after the body at
    point `t` each input's buffer at its block and each output's at `out0_W` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) := by dsimp only [dat0]
theorem after0_8 (c : Dev nD) (t : Fin cfg0.N) :
    (dat0 V c).after 8 t = out0_8 (iblk0 V c 0 t) (iblk0 V c 3 t) (iblk0 V c 4 t) := by dsimp only [dat0]
theorem after0_9 (c : Dev nD) (t : Fin cfg0.N) :
    (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1Base.lean ====
/-
  The attention region (the second pallas_call), what its two control cases share.

  The grid is 8 query tiles by 2 key/value blocks, the key/value axis innermost: point `t` is query tile `t / 2`, block
  `t % 2`. At block 0 the body resets its three scratch buffers (the running maximum, the running denominator, the
  running numerator) before using them; at block 1 it finds them as block 0 left them and, after updating them,
  stores the tile's output. So the output window is idle at the even points and written back at the odd ones, and
  the scratch buffers' contents matter only from an even point to the odd point after it.
-/
import proofs.«117020_j53815940219243_2_alg».proof.Proof.Gen.Kernel.Launch
import proofs.«117020_j53815940219243_2_alg».proof.Proof.Gen.Kernel.Skeleton
import proofs.«117020_j53815940219243_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the region-entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- The reset condition: the key/value coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The output condition: the key/value coordinate is the last one. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a block-0 point the output window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- At a block-1 point it is live. -/
theorem liveAt1_5_B : ∀ t : Fin cfg1.N, ¬cond1_0 (grid1.coords t) → cond1_1 (grid1.coords t) → cfg1.idle 5 (grid1.coords t) = false := by decide +kernel

/-! ## The memrefs the body is called with -/

abbrev VO1_5 : View sig .tc .vmem S512x64 .f32 := (Memref.whole cc1_stg5_0 : Memref sig .tc .vmem S512x64 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
/-- The three scratch operands: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The other scoped buffers of the core (the first region's staging buffers), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant with the scratch operands as memrefs owned at some contents: what the body obligation hands
    the run at a block-0 point -/
theorem PhiA1_split (c : Dev nD) :
    (Pipeline.ΦA spec1 c : sProp 𝕄)
      ⊢ iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA others1; rw [scopedRest1_eq]; simp only [scM1_0, scM1_1, scM1_2, owns_whole]
  iintro ⟨⟨A0, A1, A2, A3, A4, A5, A6, A7, A8, A9, A10, A11, A12, A13, S0, S1, S2⟩, Hg⟩
  isplitl [A0 A1 A2 A3 A4 A5 A6 A7 A8 A9 A10 A11 A12 A13]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [S0]; · iexact S0
  isplitl [S1]; · iexact S1
  isplitl [S2]; · iexact S2
  iexact Hg

/-- and takes back after the last point. -/
theorem PhiA1_join (c : Dev nD) :
    iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  unfold Pipeline.ΦA others1; rw [scopedRest1_eq]; simp only [scM1_0, scM1_1, scM1_2, owns_whole]
  iintro ⟨⟨A0, A1, A2, A3, A4, A5, A6, A7, A8, A9, A10, A11, A12, A13⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [S0]; · iexact S0
    isplitl [S1]; · iexact S1
    iexact S2
  iexact Hg

end Cert.Kernel.Fr

end
-- ==== Proof.KRegion1RunA.lean ====
/-
  The attention region's body at a block-0 point (the reset taken, the output not stored): run symbolically on
  whole staging memrefs. The five inputs are handed back as found, the idle output untouched; the three scratch
  buffers, reset before they are read, end with the pieces the run finds.
-/
import proofs.«117020_j53815940219243_2_alg».proof.Proof.KRegion1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the three scratch buffers end with at a block-0 point, with the proof that the body runs to the
    continuation holding them: the reset is decided by `hc0`, the output branch by `hc1`. -/
noncomputable def kernelRun1_A (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i)
    (x0 : Vec F S512x1024 .bf16) (x1 : Vec F S2048x1024 .bf16) (x2 : Vec F S2048x1024 .bf16) (x3 : Vec F S1024x64 .bf16) (x4 : Vec F S64 .f32) :
    Σ' (LS0 : List (View.Piece (Elt F) S512x1 .f32)) (LS1 : List (View.Piece (Elt F) S512x1 .f32)), { LS2 : List (View.Piece (Elt F) S512x1024 .f32) //
      ∀ (xi5 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Fr

end
-- ==== Proof.KRegion1RunB.lean ====
/-
  The attention region's body at a block-1 point (no reset, the output stored): run symbolically on whole staging
  memrefs, the three scratch buffers at the contents the block-0 point before left. The five inputs are handed back
  as found; the scratch buffers and the output's buffer end with the pieces the run finds.
-/
import proofs.«117020_j53815940219243_2_alg».proof.Proof.KRegion1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's buffer and the three scratch buffers end with at a block-1 point, with the proof that the
    body runs to the continuation holding them. -/
noncomputable def kernelRun1_B (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i)
    (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) :
    Σ' (L5 : List (View.Piece (Elt F) S512x64 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Fr

end
-- ==== Proof.KRegion1.lean ====
/-
  The attention region's proof data and body obligation.

  What the output's buffer and the three scratch buffers hold after each grid point is defined by recursion on the
  point: a block-0 point leaves what its run finds from the point's input blocks alone (the scratch is reset before it
  is read); a block-1 point leaves what its run finds from the input blocks and the scratch contents the point before
  left. The region's invariant is the class's before the first point and afterwards holds the three scratch buffers at
  those contents; the output window is idle at the block-0 points.
-/
import proofs.«117020_j53815940219243_2_alg».proof.Proof.KRegion1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Scratch 0 after a block-0 point: the pieces the run found, read back. -/
def sout1_A_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)
/-- Its pieces tile the buffer. -/
theorem scover1_A_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) (y : S512x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S512x1.size (by sl_kernel_rfl) y

/-- Scratch 1 after a block-0 point: the pieces the run found, read back. -/
def sout1_A_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)
/-- Its pieces tile the buffer. -/
theorem scover1_A_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) (y : S512x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S512x1.size (by sl_kernel_rfl) y

/-- Scratch 2 after a block-0 point: the pieces the run found, read back. -/
def sout1_A_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) : Vec F S512x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.1)
/-- Its pieces tile the buffer. -/
theorem scover1_A_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) (y : S512x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S512x1024.size (by sl_kernel_rfl) y

/-- The output's buffer after a block-1 point: the pieces the run found, read back. -/
def out1_B_5 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x64 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1 xs2).1)
/-- Its pieces tile the buffer. -/
theorem cover1_B_5 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x64.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S512x64.size (by sl_kernel_rfl) y

/-- Scratch 0 after a block-1 point: the pieces the run found, read back. -/
def sout1_B_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)
/-- Its pieces tile the buffer. -/
theorem scover1_B_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S512x1.size (by sl_kernel_rfl) y

/-- Scratch 1 after a block-1 point: the pieces the run found, read back. -/
def sout1_B_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)
/-- Its pieces tile the buffer. -/
theorem scover1_B_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S512x1.size (by sl_kernel_rfl) y

/-- Scratch 2 after a block-1 point: the pieces the run found, read back. -/
def sout1_B_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1)
/-- Its pieces tile the buffer. -/
theorem scover1_B_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1 S512x1024.size (by sl_kernel_rfl) y

/-- The output's buffer at a block-0 point is never consulted (the window is idle there): a placeholder. -/
def out1_A_5 : Vec F S512x64 .f32 := VO1_5.read (Elt F) (VO1_5.writes (Elt F) VO1_5.junk [])

/-- The output's buffer, the running maximum, the running denominator, the running numerator. -/
abbrev St (F : FTy → Type) [FloatOps F] : Type := Vec F S512x64 .f32 × Vec F S512x1 .f32 × Vec F S512x1 .f32 × Vec F S512x1024 .f32

section Region1

variable (V : (c : Dev nD) → (b : Ref sig .tc) → Buf (Elt F) ((c : Thread nD τ).loc b))

/-- What a block-0 point leaves. -/
def stA (c : Dev nD) (t : Fin cfg1.N) (h0 : t.val % 2 = 0) (h1 : ¬t.val % 2 = 1) : St F :=
  (out1_A_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- What a block-1 point leaves, over what the point before left in the scratch buffers. -/
def stB (c : Dev nD) (t : Fin cfg1.N) (h0 : ¬t.val % 2 = 0) (h1 : t.val % 2 = 1) (p : St F) : St F :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
    sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
    sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
    sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2)

/-- THE ACCUMULATION: the four buffers after the body at position `n`. -/
def outsAt1 (c : Dev nD) : (n : ℕ) → n < cfg1.N → St F
  | 0, hn => stA V c ⟨0, hn⟩ (Nat.zero_mod _) (by show ¬(0 % 2 = 1); decide)
  | n + 1, hn =>
    if h0 : (n + 1) % 2 = 0 then stA V c ⟨n + 1, hn⟩ h0 (by show ¬((n + 1) % 2 = 1); omega)
    else stB V c ⟨n + 1, hn⟩ h0 (by show (n + 1) % 2 = 1; omega) (outsAt1 c n (Nat.lt_of_succ_lt hn))

theorem outsAt1_A (c : Dev nD) (t : Fin cfg1.N) (h0 : t.val % 2 = 0) (h1 : ¬t.val % 2 = 1) :
    outsAt1 V c t.val t.isLt = stA V c t h0 h1 := by
  obtain ⟨n, hn⟩ := t
  cases n with
  | zero => rfl
  | succ n => exact dif_pos h0

theorem outsAt1_B (c : Dev nD) (t : Fin cfg1.N) (h0 : ¬t.val % 2 = 0) (h1 : t.val % 2 = 1) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact dif_neg h0

/-- The region invariant before position `n`: the class's before the first point; afterwards the other scoped buffers
    at anything, the three scratch buffers at what the point before left, the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the point's parity says which case it is in; the
    invariant hands the body the scratch buffers (at anything before the first point, at what the point before left
    afterwards) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 2 = 0
  · have h1 : ¬t.val % 2 = 1 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold stA sout1_A_0 sout1_A_1 sout1_A_2; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := PhiA1_split (F := F) c $$ HΦ
      icases HΦ' with ⟨Hoth, HS0, HS1, HS2, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩

      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
    rw [outsAt1_B V c t h0 h1]
    unfold stB out1_B_5 sout1_B_0 sout1_B_1 sout1_B_2; (try dsimp only)
    rw [PhiS_castSucc V c t, PhiS_pos V c _ _ hz]
    iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA1_join (F := F) c)
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 16 := N_1; omega)

end Region1

end Cert.Kernel.Fr

end
-- ==== Proof.KRun.lean ====
/-
  The run of the whole program: @main is a stretch of host operations (the four weight matrices rounded to bf16), the
  projection region, the attention region. The contents of the core's unscoped buffers at each boundary are a fold from
  the launch memory: a host stretch applies its operations, a region replaces its windows' arrays by what its
  write-backs leave and keeps every other buffer. No item writes an argument array, so each reads back to its launch
  contents; the result array holds what the attention region's write-backs leave.
-/
import proofs.«117020_j53815940219243_2_alg».proof.Proof.KRegion0
import proofs.«117020_j53815940219243_2_alg».proof.Proof.KRegion1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 4).trans (((dat1 (V2 m ρ) c).arrAt_in 4 rfl _).trans (A_eq1 (V2 m ρ) c 4))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result array ends at what the attention region's write-backs leave. -/
theorem W3_main_v5 (c : Dev nD) : W3 m ρ c (Proc.devRef .tc main_v5) = (dat1 (V2 m ρ) c).arrAt 5 cfg1.N := W3_arr m ρ c 5

/-! ## The proof data family and the thread state -/

abbrev adm : (p : Fin 2) → (pcfgs (F := F) p).Adm := fun p => (cfgs p).toPCfg_adm
/-- Every pipeline's proof data, each at its region's entry contents (a literal match). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run_all m ρ)

/-- THE RESULT: the result array ends at what the attention region's write-backs leave, beside the frame. -/
theorem run_result : θ_run defs (onTc (τ := τ) (main (F := F))) ⟨m, fun _ => 0, ρ⟩ (fun r => ∀ c : Dev nD,
      r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v5 (by decide))).trans (W3_main_v5 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run_all m ρ)

end Cert.Kernel.Fr

end
-- ==== Proof.KIRegion0.lean ====
/- REGION 0 of @main: the fused q/k/v projection call, as a class-A pipeline body, at a PARAMETER `V` — the
   TensorCore's buffer contents when the region is entered. Each window's block at a point, what the body leaves in each
   output window's staging buffer (the payload of its one whole-buffer store), the body's triple, the pipeline's proof
   data and the body obligation. Generic in the float model. -/
import proofs.«117020_j53815940219243_2_alg».proof.Proof.Gen.KernelIdeal.Launch
import proofs.«117020_j53815940219243_2_alg».proof.Proof.Gen.KernelIdeal.Skeleton
import proofs.«117020_j53815940219243_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): unfetched, the block index has
    not moved; every window here is uncut and never idle. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole of a row block of the activations (and of each output block). -/
abbrev rX : Rect S512x1024 := Rect.unit (s := S512x1024) ![0, 0] S512x1024.size inb_S512x1024_S512x1024_0_0
/-- The whole of a weight matrix. -/
abbrev rW : Rect S1024x1024 := Rect.unit (s := S1024x1024) ![0, 0] S1024x1024.size inb_S1024x1024_S1024x1024_0_0
/-- The whole of a bias vector. -/
abbrev rB : Rect S1024 := Rect.unit (s := S1024) ![0] S1024.size inb_S1024_S1024_0

/-! ## What the body leaves in each output window's buffer -/

/-- The first output's staging buffer after the body, from the input windows' blocks: its one store, of the whole buffer. -/
def out0_7 (x0 : Vec F S512x1024 .f32) (x1 : Vec F S1024x1024 .bf16) (x2 : Vec F S1024 .f32) : Vec F S512x1024 .bf16 :=
  View.canon [⟨rX, k0_pay2 (View.ld x0 rX) (View.ld x1 rW) (View.ld x2 rB)⟩]
/-- The second output's. -/
def out0_8 (x0 : Vec F S512x1024 .f32) (x3 : Vec F S1024x1024 .bf16) (x4 : Vec F S1024 .f32) : Vec F S512x1024 .bf16 :=
  View.canon [⟨rX, k0_pay3 (View.ld x0 rX) (View.ld x3 rW) (View.ld x4 rB)⟩]
/-- The third output's. -/
def out0_9 (x0 : Vec F S512x1024 .f32) (x5 : Vec F S1024x1024 .bf16) (x6 : Vec F S1024 .f32) : Vec F S512x1024 .bf16 :=
  View.canon [⟨rX, k0_pay4 (View.ld x0 rX) (View.ld x5 rW) (View.ld x6 rB)⟩]

/-- One store of the whole buffer covers it. -/
theorem cover0_out (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- The kernel body on whole staging memrefs, the inputs' at read contents `xW` and the outputs' at anything, runs to
    the continuation holding the inputs' as they were and each output's at `out0_W` of the inputs'. Each output buffer is
    loaded once before it is stored, a load whose value nothing reads. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024 .f32) (harg3 : arg3.IsWhole)
    (arg4 : Memref sig .tc .vmem S1024x1024 .bf16) (harg4 : arg4.IsWhole)
    (arg5 : Memref sig .tc .vmem S1024 .f32) (harg5 : arg5.IsWhole)
    (arg6 : Memref sig .tc .vmem S1024x1024 .bf16) (harg6 : arg6.IsWhole)
    (arg7 : Memref sig .tc .vmem S1024 .f32) (harg7 : arg7.IsWhole)
    (arg8 : Memref sig .tc .vmem S512x1024 .bf16) (harg8 : arg8.IsWhole)
    (arg9 : Memref sig .tc .vmem S512x1024 .bf16) (harg9 : arg9.IsWhole)
    (arg10 : Memref sig .tc .vmem S512x1024 .bf16) (harg10 : arg10.IsWhole)
    (x0 : Vec F S512x1024 .f32) (x1 : Vec F S1024x1024 .bf16) (x2 : Vec F S1024 .f32)
    (x3 : Vec F S1024x1024 .bf16) (x4 : Vec F S1024 .f32) (x5 : Vec F S1024x1024 .bf16) (x6 : Vec F S1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2)
            ∗ owns (c : Thread nD τ) arg9 fullShare (out0_8 x0 x3 x4)
            ∗ owns (c : Thread nD τ) arg10 fullShare (out0_9 x0 x5 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of the projection pipeline on core `c`: the arrays as the region finds them (`V`); after the body at
    point `t` each input's buffer at its block and each output's at `out0_W` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 2 t) := by dsimp only [dat0]
theorem after0_8 (c : Dev nD) (t : Fin cfg0.N) :
    (dat0 V c).after 8 t = out0_8 (iblk0 V c 0 t) (iblk0 V c 3 t) (iblk0 V c 4 t) := by dsimp only [dat0]
theorem after0_9 (c : Dev nD) (t : Fin cfg0.N) :
    (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIRegion1Base.lean ====
/-
  The attention region (the second pallas_call), what its two control cases share.

  The grid is 8 query tiles by 2 key/value blocks, the key/value axis innermost: point `t` is query tile `t / 2`, block
  `t % 2`. At block 0 the body resets its three scratch buffers (the running maximum, the running denominator, the
  running numerator) before using them; at block 1 it finds them as block 0 left them and, after updating them,
  stores the tile's output. So the output window is idle at the even points and written back at the odd ones, and
  the scratch buffers' contents matter only from an even point to the odd point after it.
-/
import proofs.«117020_j53815940219243_2_alg».proof.Proof.Gen.KernelIdeal.Launch
import proofs.«117020_j53815940219243_2_alg».proof.Proof.Gen.KernelIdeal.Skeleton
import proofs.«117020_j53815940219243_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the region-entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, decided over the grid -/

/-- The reset condition: the key/value coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The output condition: the key/value coordinate is the last one. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a block-0 point the output window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- At a block-1 point it is live. -/
theorem liveAt1_5_B : ∀ t : Fin cfg1.N, ¬cond1_0 (grid1.coords t) → cond1_1 (grid1.coords t) → cfg1.idle 5 (grid1.coords t) = false := by decide +kernel

/-! ## The memrefs the body is called with -/

abbrev VO1_5 : View sig .tc .vmem S512x64 .f32 := (Memref.whole cc1_stg5_0 : Memref sig .tc .vmem S512x64 .f32).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x64 .f32 := win1_5.stage (cfg1.slots t 5)
abbrev hs1_5 (t : Fin cfg1.N) : (ms1_5 t).IsWhole := hstage1_5 ((cfg1.slots t 5).cast nbuf1_5)
/-- The three scratch operands: the running maximum, the running denominator, the running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view

/-- The other scoped buffers of the core (the first region's staging buffers), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant with the scratch operands as memrefs owned at some contents: what the body obligation hands
    the run at a block-0 point -/
theorem PhiA1_split (c : Dev nD) :
    (Pipeline.ΦA spec1 c : sProp 𝕄)
      ⊢ iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA others1; rw [scopedRest1_eq]; simp only [scM1_0, scM1_1, scM1_2, owns_whole]
  iintro ⟨⟨A0, A1, A2, A3, A4, A5, A6, A7, A8, A9, A10, A11, A12, A13, S0, S1, S2⟩, Hg⟩
  isplitl [A0 A1 A2 A3 A4 A5 A6 A7 A8 A9 A10 A11 A12 A13]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [S0]; · iexact S0
  isplitl [S1]; · iexact S1
  isplitl [S2]; · iexact S2
  iexact Hg

/-- and takes back after the last point. -/
theorem PhiA1_join (c : Dev nD) :
    iprop(others1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  unfold Pipeline.ΦA others1; rw [scopedRest1_eq]; simp only [scM1_0, scM1_1, scM1_2, owns_whole]
  iintro ⟨⟨A0, A1, A2, A3, A4, A5, A6, A7, A8, A9, A10, A11, A12, A13⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [S0]; · iexact S0
    isplitl [S1]; · iexact S1
    iexact S2
  iexact Hg

end Cert.KernelIdeal.Fr

end
-- ==== Proof.KIRegion1RunA.lean ====
/-
  The attention region's body at a block-0 point (the reset taken, the output not stored): run symbolically on
  whole staging memrefs. The five inputs are handed back as found, the idle output untouched; the three scratch
  buffers, reset before they are read, end with the pieces the run finds.
-/
import proofs.«117020_j53815940219243_2_alg».proof.Proof.KIRegion1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the three scratch buffers end with at a block-0 point, with the proof that the body runs to the
    continuation holding them: the reset is decided by `hc0`, the output branch by `hc1`. -/
noncomputable def kernelRun1_A (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i)
    (x0 : Vec F S512x1024 .bf16) (x1 : Vec F S2048x1024 .bf16) (x2 : Vec F S2048x1024 .bf16) (x3 : Vec F S1024x64 .bf16) (x4 : Vec F S64 .f32) :
    Σ' (LS0 : List (View.Piece (Elt F) S512x1 .f32)) (LS1 : List (View.Piece (Elt F) S512x1 .f32)), { LS2 : List (View.Piece (Elt F) S512x1024 .f32) //
      ∀ (xi5 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Fr

end
-- ==== Proof.KIRegion1RunB.lean ====
/-
  The attention region's body at a block-1 point (no reset, the output stored): run symbolically on whole staging
  memrefs, the three scratch buffers at the contents the block-0 point before left. The five inputs are handed back
  as found; the scratch buffers and the output's buffer end with the pieces the run finds.
-/
import proofs.«117020_j53815940219243_2_alg».proof.Proof.KIRegion1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the output's buffer and the three scratch buffers end with at a block-1 point, with the proof that the
    body runs to the continuation holding them. -/
noncomputable def kernelRun1_B (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i)
    (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) :
    Σ' (L5 : List (View.Piece (Elt F) S512x64 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Fr

end
-- ==== Proof.KIRegion1.lean ====
/-
  The attention region's proof data and body obligation.

  What the output's buffer and the three scratch buffers hold after each grid point is defined by recursion on the
  point: a block-0 point leaves what its run finds from the point's input blocks alone (the scratch is reset before it
  is read); a block-1 point leaves what its run finds from the input blocks and the scratch contents the point before
  left. The region's invariant is the class's before the first point and afterwards holds the three scratch buffers at
  those contents; the output window is idle at the block-0 points.
-/
import proofs.«117020_j53815940219243_2_alg».proof.Proof.KIRegion1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Scratch 0 after a block-0 point: the pieces the run found, read back. -/
def sout1_A_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).1)
/-- Its pieces tile the buffer. -/
theorem scover1_A_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) (y : S512x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S512x1.size (by sl_kernel_rfl) y

/-- Scratch 1 after a block-0 point: the pieces the run found, read back. -/
def sout1_A_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) : Vec F S512x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.1)
/-- Its pieces tile the buffer. -/
theorem scover1_A_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) (y : S512x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S512x1.size (by sl_kernel_rfl) y

/-- Scratch 2 after a block-0 point: the pieces the run found, read back. -/
def sout1_A_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) : Vec F S512x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.1)
/-- Its pieces tile the buffer. -/
theorem scover1_A_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) (y : S512x1024.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S512x1024.size (by sl_kernel_rfl) y

/-- The output's buffer after a block-1 point: the pieces the run found, read back. -/
def out1_B_5 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x64 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1 xs2).1)
/-- Its pieces tile the buffer. -/
theorem cover1_B_5 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x64.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S512x64.size (by sl_kernel_rfl) y

/-- Scratch 0 after a block-1 point: the pieces the run found, read back. -/
def sout1_B_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)
/-- Its pieces tile the buffer. -/
theorem scover1_B_0 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S512x1.size (by sl_kernel_rfl) y

/-- Scratch 1 after a block-1 point: the pieces the run found, read back. -/
def sout1_B_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)
/-- Its pieces tile the buffer. -/
theorem scover1_B_1 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S512x1.size (by sl_kernel_rfl) y

/-- Scratch 2 after a block-1 point: the pieces the run found, read back. -/
def sout1_B_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1)
/-- Its pieces tile the buffer. -/
theorem scover1_B_2 (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1 S512x1024.size (by sl_kernel_rfl) y

/-- The output's buffer at a block-0 point is never consulted (the window is idle there): a placeholder. -/
def out1_A_5 : Vec F S512x64 .f32 := VO1_5.read (Elt F) (VO1_5.writes (Elt F) VO1_5.junk [])

/-- The output's buffer, the running maximum, the running denominator, the running numerator. -/
abbrev St (F : FTy → Type) [FloatOps F] : Type := Vec F S512x64 .f32 × Vec F S512x1 .f32 × Vec F S512x1 .f32 × Vec F S512x1024 .f32

section Region1

variable (V : (c : Dev nD) → (b : Ref sig .tc) → Buf (Elt F) ((c : Thread nD τ).loc b))

/-- What a block-0 point leaves. -/
def stA (c : Dev nD) (t : Fin cfg1.N) (h0 : t.val % 2 = 0) (h1 : ¬t.val % 2 = 1) : St F :=
  (out1_A_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- What a block-1 point leaves, over what the point before left in the scratch buffers. -/
def stB (c : Dev nD) (t : Fin cfg1.N) (h0 : ¬t.val % 2 = 0) (h1 : t.val % 2 = 1) (p : St F) : St F :=
  (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
    sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
    sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2,
    sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2)

/-- THE ACCUMULATION: the four buffers after the body at position `n`. -/
def outsAt1 (c : Dev nD) : (n : ℕ) → n < cfg1.N → St F
  | 0, hn => stA V c ⟨0, hn⟩ (Nat.zero_mod _) (by show ¬(0 % 2 = 1); decide)
  | n + 1, hn =>
    if h0 : (n + 1) % 2 = 0 then stA V c ⟨n + 1, hn⟩ h0 (by show ¬((n + 1) % 2 = 1); omega)
    else stB V c ⟨n + 1, hn⟩ h0 (by show (n + 1) % 2 = 1; omega) (outsAt1 c n (Nat.lt_of_succ_lt hn))

theorem outsAt1_A (c : Dev nD) (t : Fin cfg1.N) (h0 : t.val % 2 = 0) (h1 : ¬t.val % 2 = 1) :
    outsAt1 V c t.val t.isLt = stA V c t h0 h1 := by
  obtain ⟨n, hn⟩ := t
  cases n with
  | zero => rfl
  | succ n => exact dif_pos h0

theorem outsAt1_B (c : Dev nD) (t : Fin cfg1.N) (h0 : ¬t.val % 2 = 0) (h1 : t.val % 2 = 1) :
    outsAt1 V c t.val t.isLt = stB V c t h0 h1 (outsAt1 V c (t.val - 1) (Nat.lt_of_le_of_lt (Nat.sub_le _ _) t.isLt)) := by
  obtain ⟨n, hn⟩ := t
  cases n with
  | zero => exact absurd (Nat.zero_mod _) h0
  | succ n => exact dif_neg h0

/-- The region invariant before position `n`: the class's before the first point; afterwards the other scoped buffers
    at anything, the three scratch buffers at what the point before left, the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point: the inputs' memrefs hold their blocks; the point's parity says which case it is in; the
    invariant hands the body the scratch buffers (at anything before the first point, at what the point before left
    afterwards) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 2 = 0
  · have h1 : ¬t.val % 2 = 1 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold stA sout1_A_0 sout1_A_1 sout1_A_2; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := PhiA1_split (F := F) c $$ HΦ
      icases HΦ' with ⟨Hoth, HS0, HS1, HS2, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩, ⟨%d4, H4⟩, ⟨%d5, H5⟩⟩

      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hz : t.val ≠ 0 := by omega
    rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
    rw [outsAt1_B V c t h0 h1]
    unfold stB out1_B_5 sout1_B_0 sout1_B_1 sout1_B_2; (try dsimp only)
    rw [PhiS_castSucc V c t, PhiS_pos V c _ _ hz]
    iintro ⟨⟨Hoth, HS0, HS1, HS2, Hg⟩, Ho, ⟨%d0, H0⟩, ⟨%d1, H1⟩, ⟨%d2, H2⟩, ⟨%d3, H3⟩, ⟨%d4, H4⟩, ⟨%d5, H5⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_B_2 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA1_join (F := F) c)
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 16 := N_1; omega)

end Region1

end Cert.KernelIdeal.Fr

end
-- ==== Proof.KIRun.lean ====
/-
  The run of the whole program: @main is a stretch of host operations (the four weight matrices rounded to bf16), the
  projection region, the attention region. The contents of the core's unscoped buffers at each boundary are a fold from
  the launch memory: a host stretch applies its operations, a region replaces its windows' arrays by what its
  write-backs leave and keeps every other buffer. No item writes an argument array, so each reads back to its launch
  contents; the result array holds what the attention region's write-backs leave.
-/
import proofs.«117020_j53815940219243_2_alg».proof.Proof.KIRegion0
import proofs.«117020_j53815940219243_2_alg».proof.Proof.KIRegion1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the attention region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 4).trans (((dat1 (V2 m ρ) c).arrAt_in 4 rfl _).trans (A_eq1 (V2 m ρ) c 4))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result array ends at what the attention region's write-backs leave. -/
theorem W3_main_v5 (c : Dev nD) : W3 m ρ c (Proc.devRef .tc main_v5) = (dat1 (V2 m ρ) c).arrAt 5 cfg1.N := W3_arr m ρ c 5

/-! ## The proof data family and the thread state -/

abbrev adm : (p : Fin 2) → (pcfgs (F := F) p).Adm := fun p => (cfgs p).toPCfg_adm
/-- Every pipeline's proof data, each at its region's entry contents (a literal match). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run_all m ρ)

/-- THE RESULT: the result array ends at what the attention region's write-backs leave, beside the frame. -/
theorem run_result : θ_run defs (onTc (τ := τ) (main (F := F))) ⟨m, fun _ => 0, ρ⟩ (fun r => ∀ c : Dev nD,
      r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v5 (by decide))).trans (W3_main_v5 m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run_all m ρ)

end Cert.KernelIdeal.Fr

end
-- ==== Proof.Spec.lean ====
/-
  The attention this kernel computes, written index by index on the extended reals, in the kernel's own arrangement.

  Every row of `x` is projected three times (`q`, `k`, `v`: a product with a weight matrix plus a bias row). Row `i` of `q`
  meets every row `j` of `k` in a score `s i j = ∑ d, q i d * k j d`. The 4096 keys are visited in two blocks of 2048
  (`key 0 j = j`, `key 1 j = 2048 + j`). A running maximum `m`, a running denominator `l` and a running numerator
  `acc` start at `-∞`, `0`, `0`; a block moves the maximum to `max m (block maximum)`, rescales `l` and `acc` by
  `exp (m_old - m_new)` and adds the block's `∑ exp (s - m_new)` (weighted by `v` for `acc`). After the second
  block the row of weights applied to `v` is `acc / l`, scaled by one eighth, and the result is projected by `Wo`
  with the bias `bo`.
-/
import Idealize.ShloMosaic.PureOps.Ideal
import Idealize.ShloMosaic.Lib.ValueIdx

noncomputable section

open scoped BigOperators

namespace AttnSpec

open Idealize.ShloMosaic Idealize.ShloMosaic.ValueIdx

/-- A matrix and a vector of extended reals over literal extents. -/
abbrev Arr2 (a b : Nat) : Type := (⟨2, ![a, b]⟩ : Shape).Idx → EReal
abbrev Arr1 (a : Nat) : Type := (⟨1, ![a]⟩ : Shape).Idx → EReal

/-- A dense layer read at an entry: row `i` of `x` against column `d` of `W`, plus the bias. -/
def proj (x : Arr2 4096 1024) (W : Arr2 1024 1024) (b : Arr1 1024) (i : Fin 4096) (d : Fin 1024) : EReal :=
  (∑ c : Fin 1024, x (ix2 i c) * W (ix2 c d)) + b (ix1 d)

/-- Key `j` of block `b`: the blocks are consecutive runs of 2048 keys. -/
def key (b : Fin 2) (j : Fin 2048) : Fin 4096 := ⟨b.val * 2048 + j.val, by have := b.isLt; have := j.isLt; omega⟩

section Row

variable (q k v : Fin 4096 → Fin 1024 → EReal)

/-- The score of query row `i` against key row `j`. -/
def score (i j : Fin 4096) : EReal := ∑ d : Fin 1024, q i d * k j d

/-- The greatest score of row `i` within block `b` (from `-∞`). -/
def blockMax (b : Fin 2) (i : Fin 4096) : EReal :=
  (Finset.univ : Finset (Fin 2048)).fold max (⊥ : EReal) (fun j => score q k i (key b j))

/-- After the first block: the maximum, the rescaling factor of the (empty) carried state, the denominator, the numerator. -/
def m1 (i : Fin 4096) : EReal := max (⊥ : EReal) (blockMax q k 0 i)
def a1 (i : Fin 4096) : EReal := Ideal.exp ((⊥ : EReal) - m1 q k i)
def l1 (i : Fin 4096) : EReal := a1 q k i * 0 + ∑ j : Fin 2048, Ideal.exp (score q k i (key 0 j) - m1 q k i)
def acc1 (i : Fin 4096) (d : Fin 1024) : EReal :=
  a1 q k i * 0 + ∑ j : Fin 2048, Ideal.exp (score q k i (key 0 j) - m1 q k i) * v (key 0 j) d

/-- After the second block. -/
def m2 (i : Fin 4096) : EReal := max (m1 q k i) (blockMax q k 1 i)
def a2 (i : Fin 4096) : EReal := Ideal.exp (m1 q k i - m2 q k i)
def l2 (i : Fin 4096) : EReal := a2 q k i * l1 q k i + ∑ j : Fin 2048, Ideal.exp (score q k i (key 1 j) - m2 q k i)
def acc2 (i : Fin 4096) (d : Fin 1024) : EReal :=
  a2 q k i * acc1 q k v i d + ∑ j : Fin 2048, Ideal.exp (score q k i (key 1 j) - m2 q k i) * v (key 1 j) d

/-- The attended row: numerator over denominator, scaled by one eighth. -/
def z (i : Fin 4096) (d : Fin 1024) : EReal := Ideal.div (acc2 q k v i d) (l2 q k i) * ((1 / 8 : ℝ) : EReal)

end Row

/-- The output entry `(i, h)`: the attended row against column `h` of `Wo`, plus the bias. -/
def out (q k v : Fin 4096 → Fin 1024 → EReal) (Wo : Arr2 1024 64) (bo : Arr1 64) (i : Fin 4096) (h : Fin 64) : EReal :=
  (∑ d : Fin 1024, z q k v i d * Wo (ix2 d h)) + bo (ix1 h)

/-- THE KERNEL'S FUNCTION of the nine argument arrays, in the kernel's arrangement. -/
def Gk (x : Arr2 4096 1024) (Wq : Arr2 1024 1024) (bq : Arr1 1024) (Wk : Arr2 1024 1024) (bk : Arr1 1024)
    (Wv : Arr2 1024 1024) (bv : Arr1 1024) (Wo : Arr2 1024 64) (bo : Arr1 64) : Arr2 4096 64 :=
  fun j => out (proj x Wq bq) (proj x Wk bk) (proj x Wv bv) Wo bo (j 0) (j 1)

theorem Gk_ix2 (x : Arr2 4096 1024) (Wq : Arr2 1024 1024) (bq : Arr1 1024) (Wk : Arr2 1024 1024) (bk : Arr1 1024)
    (Wv : Arr2 1024 1024) (bv : Arr1 1024) (Wo : Arr2 1024 64) (bo : Arr1 64) (i : Fin 4096) (h : Fin 64) :
    Gk x Wq bq Wk bk Wv bv Wo bo (ix2 i h) = out (proj x Wq bq) (proj x Wk bk) (proj x Wv bv) Wo bo i h := rfl

/-- Every entry of the nine arrays is a real number (what the precondition gives). -/
def Finite (x : Arr2 4096 1024) (Wq : Arr2 1024 1024) (bq : Arr1 1024) (Wk : Arr2 1024 1024) (bk : Arr1 1024)
    (Wv : Arr2 1024 1024) (bv : Arr1 1024) (Wo : Arr2 1024 64) (bo : Arr1 64) : Prop :=
  (∀ j, ∃ r : ℝ, x j = (r : EReal)) ∧ (∀ j, ∃ r : ℝ, Wq j = (r : EReal)) ∧ (∀ j, ∃ r : ℝ, bq j = (r : EReal))
  ∧ (∀ j, ∃ r : ℝ, Wk j = (r : EReal)) ∧ (∀ j, ∃ r : ℝ, bk j = (r : EReal))
  ∧ (∀ j, ∃ r : ℝ, Wv j = (r : EReal)) ∧ (∀ j, ∃ r : ℝ, bv j = (r : EReal))
  ∧ (∀ j, ∃ r : ℝ, Wo j = (r : EReal)) ∧ (∀ j, ∃ r : ℝ, bo j = (r : EReal))

end AttnSpec

end
-- ==== Proof.KIArrays.lean ====
/-
  The three projected arrays (queries, keys, values) as the attention region finds them, read by row and column.
-/
import proofs.«117020_j53815940219243_2_alg».proof.Proof.Gen.KernelIdeal.Launch
import proofs.«117020_j53815940219243_2_alg».proof.Proof.Spec
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- Entry `(i, d)` of the query array the attention region is entered with. -/
def Qa (c : Dev nD) (i : Fin 4096) (d : Fin 1024) : EReal := (V c main_v4_0 : AttnSpec.Arr2 4096 1024) (ix2 i d)
/-- Entry `(i, d)` of the key array. -/
def Ka (c : Dev nD) (i : Fin 4096) (d : Fin 1024) : EReal := (V c main_v4_1 : AttnSpec.Arr2 4096 1024) (ix2 i d)
/-- Entry `(i, d)` of the value array. -/
def Va (c : Dev nD) (i : Fin 4096) (d : Fin 1024) : EReal := (V c main_v4_2 : AttnSpec.Arr2 4096 1024) (ix2 i d)

end Cert.KernelIdeal.Fr

end
-- ==== Proof.KIFinal1.lean ====
/-
  The attention region's output array from its tiles.

  The region's grid has sixteen points, eight query tiles by two key blocks: point `t` works on tile `t / 2` with
  block `t % 2`. The output window's block at point `t` is rows `(t / 2) * 512 ... (t / 2) * 512 + 511` and all 64
  columns of the array, and it is written back at the odd points only (after a tile's second block). If what an odd
  point leaves in the output's buffer is the specification's output on that tile's rows, then the array ends holding
  the specification's output everywhere: element `(p, h)` of the block sits at row `(t / 2) * 512 + p` and column `h`,
  and row `r` is covered by the odd point `2 * (r / 512) + 1`.
-/
import proofs.«117020_j53815940219243_2_alg».proof.Proof.KIRegion1
import proofs.«117020_j53815940219243_2_alg».proof.Proof.KIArrays
import proofs.«117020_j53815940219243_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The output window's printed index map, decided over the grid: the block index at point `t` is `(t / 2, 0)`. -/
theorem idx_out : ∀ t : Fin cfg1.N, win1_5.index t (0 : Fin 2) = t.val / 2 ∧ win1_5.index t (1 : Fin 2) = 0 :=
  (by decide +kernel : ∀ t : Fin grid1.N, win1_5.index t (0 : Fin 2) = t.val / 2 ∧ win1_5.index t (1 : Fin 2) = 0)

/-- The specification's output over the arrays the region is entered with, as contents of the output array. -/
def Gout (c : Dev nD) : S4096x64.Idx → EReal :=
  fun j => AttnSpec.out (Qa V c) (Ka V c) (Va V c) (V c main_v3) (V c main_arg8) (j 0) (j 1)

/-- WHAT AN ODD POINT WRITES BACK is its block of the specification's output, given that on its tile's rows. -/
theorem flushed1_5_eq (c : Dev nD)
    (htile : ∀ (t : Fin cfg1.N) (ht : t.val % 2 = 1) (p : Fin 512) (h : Fin 64),
      (outsAt1 (F := Ideal) V c t.val t.isLt).1 (ix2 p h)
        = AttnSpec.out (Qa V c) (Ka V c) (Va V c) (V c main_v3) (V c main_arg8)
            ⟨(t.val / 2) * 512 + p.val, by have := t.isLt; have : cfg1.N = 16 := N_1; omega⟩ h)
    (t : Fin cfg1.N) (hf : (cfg1.win 5).flush t = true) :
    (dat1 (F := Ideal) V c).flushed 5 t = ((cfg1.win 5).blk t).view.read (Elt Ideal) (Gout V c) := by
  have ht : t.val % 2 = 1 := (flush1_5 t).mp hf
  obtain ⟨e0, e1⟩ := idx_out t
  show (cfg1.win 5).cut (grid1.coords t) ((dat1 (F := Ideal) V c).after 5 t) = _
  rw [after1_5]
  funext y
  have hp : (y 0).val < 512 := (y 0).isLt
  have hh : (y 1).val < 64 := (y 1).isLt
  show (outsAt1 (F := Ideal) V c t.val t.isLt).1 ((cfg1.win 5).xinj (grid1.coords t) y)
    = Gout V c (((cfg1.win 5).blk t).view.emb y)
  have hx : (cfg1.win 5).xinj (grid1.coords t) y = ix2 (⟨(y 0).val, hp⟩ : Fin 512) (⟨(y 1).val, hh⟩ : Fin 64) := by
    funext a; match a with | ⟨0, _⟩ => rfl | ⟨1, _⟩ => rfl
  rw [hx, htile t ht]
  unfold Gout
  refine congrArg₂ (AttnSpec.out (Qa V c) (Ka V c) (Va V c) (V c main_v3) (V c main_arg8)) (Fin.ext ?_) (Fin.ext ?_)
  · show t.val / 2 * 512 + (y 0).val = win1_5.index t (0 : Fin 2) * 512 + 1 * (y 0).val
    rw [e0]; omega
  · show (y 1).val = win1_5.index t (1 : Fin 2) * 64 + 1 * (y 1).val
    rw [e1]; omega

/-- An index of the array is in point `t`'s block iff each coordinate is in the block's range on its axis. -/
theorem mem_blk1_5 (t : Fin cfg1.N) (i : S4096x64.Idx) :
    i ∈ ((cfg1.win 5).blk t).view.set
      ↔ ∀ a : Fin 2, win1_5.index t a * S512x64.size a ≤ (i a).val ∧ (i a).val < win1_5.index t a * S512x64.size a + S512x64.size a := by
  show i ∈ ((View.whole main_v5).slice (win1_5.rect t)).set ↔ _
  rw [View.set_slice_whole, Rect.mem_set_unit]
  exact Iff.rfl

/-- Every index of the array is in the block of an odd point: row `r` in that of point `2 * (r / 512) + 1`. -/
theorem cover1_5 (i : S4096x64.Idx) :
    ∃ t : Fin cfg1.N, (cfg1.win 5).flush t = true ∧ i ∈ ((cfg1.win 5).blk t).view.set := by
  have hi0 : (i 0).val < 4096 := (i 0).isLt
  have hi1 : (i 1).val < 64 := (i 1).isLt
  have hN : cfg1.N = 16 := N_1
  let t : Fin cfg1.N := ⟨2 * ((i 0).val / 512) + 1, by omega⟩
  have htv : t.val = 2 * ((i 0).val / 512) + 1 := rfl
  obtain ⟨e0, e1⟩ := idx_out t
  refine ⟨t, (flush1_5 t).mpr (by omega), ?_⟩
  rw [mem_blk1_5]
  intro a
  match a with
  | ⟨0, _⟩ =>
    show win1_5.index t (0 : Fin 2) * 512 ≤ (i 0).val ∧ (i 0).val < win1_5.index t (0 : Fin 2) * 512 + 512
    rw [e0]; omega
  | ⟨1, _⟩ =>
    show win1_5.index t (1 : Fin 2) * 64 ≤ (i 1).val ∧ (i 1).val < win1_5.index t (1 : Fin 2) * 64 + 64
    rw [e1]; omega

/-- THE OUTPUT ARRAY after the region: the specification's output of the arrays the region is entered with, given
    that each odd point leaves it on its tile's rows. -/
theorem final1_5_of (c : Dev nD)
    (htile : ∀ (t : Fin cfg1.N) (ht : t.val % 2 = 1) (p : Fin 512) (h : Fin 64),
      (outsAt1 (F := Ideal) V c t.val t.isLt).1 (ix2 p h)
        = AttnSpec.out (Qa V c) (Ka V c) (Va V c) (V c main_v3) (V c main_arg8)
            ⟨(t.val / 2) * 512 + p.val, by have := t.isLt; have : cfg1.N = 16 := N_1; omega⟩ h) :
    (dat1 (F := Ideal) V c).arrAt 5 cfg1.N
      = fun j : S4096x64.Idx => AttnSpec.out (Qa V c) (Ka V c) (Va V c) (V c main_v3) (V c main_arg8) (j 0) (j 1) :=
  (dat1 (F := Ideal) V c).arrAt_eq_of_cover 5 (Gout V c) (fun t hf => flushed1_5_eq V c htile t hf) cover1_5

end Cert.KernelIdeal.Fr

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.KIRegion0Value.lean ====
/- REGION 0 of @main read on the extended reals: what the fused q/k/v projection call leaves in its three output
   arrays, as whole-array functions of the buffer contents the region finds. Each output block is one whole-buffer
   store of a dense layer of the activations' row block; the eight row blocks tile the 4096 rows. -/
import proofs.«117020_j53815940219243_2_alg».proof.Proof.KIRegion0
import proofs.«117020_j53815940219243_2_alg».proof.Proof.Spec
import proofs.«117020_j53815940219243_2_alg».proof.Proof.LibPlainMatmul
import proofs.«117020_j53815940219243_2_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

/-! ## The matrix unit's dimension record: a plain product, rows by columns -/

local notation "DD" => dot_S512x1024_S1024x1024_S512x1024_1_0_0_1_n_n

theorem dd_rank : (DD).contr.rank = 1 := rfl

theorem dd_size : (DD).contr.size ⟨0, by rw [dd_rank]; exact Nat.one_pos⟩ = 1024 := rfl

theorem dd_lhs0 (j : S512x1024.Idx) (q : (DD).contr.Idx) : ((DD).lhsIdx j q 0).val = (j 0).val := by
  unfold DotDims.lhsIdx
  rw [dif_neg (show ¬(0 : Fin 2) ∈ (DD).lhsBatch from List.not_mem_nil),
    dif_pos (show (0 : Fin 2) ∈ (DD).lhsNonContracting from List.mem_singleton.mpr rfl)]
  rfl

theorem dd_lhs1 (j : S512x1024.Idx) (q : (DD).contr.Idx) :
    ((DD).lhsIdx j q 1).val = (q ⟨0, by rw [dd_rank]; exact Nat.one_pos⟩).val :=
  (DD).lhsIdx_val_of_single rfl j q

theorem dd_rhs0 (j : S512x1024.Idx) (q : (DD).contr.Idx) :
    ((DD).rhsIdx j q 0).val = (q ⟨0, by rw [dd_rank]; exact Nat.one_pos⟩).val :=
  (DD).rhsIdx_val_of_single rfl j q

theorem dd_rhs1 (j : S512x1024.Idx) (q : (DD).contr.Idx) : ((DD).rhsIdx j q 1).val = (j 1).val := by
  unfold DotDims.rhsIdx
  rw [dif_neg (show ¬(1 : Fin 2) ∈ (DD).rhsBatch from List.not_mem_nil),
    dif_pos (show (1 : Fin 2) ∈ (DD).rhsNonContracting from List.mem_singleton.mpr rfl)]
  rfl

/-! ## The body's payloads at an entry: a dense layer of the row block -/

/-- Entry `(p, q)` of a dense layer of a row block: row `p` against column `q` of the weights, plus the bias' lane `q`.
    Rounding to the narrower format and back is the identity on the extended reals. -/
theorem dense_apply (x0 : FVec Ideal S512x1024 .f32) (w : FVec Ideal S1024x1024 .bf16) (b : FVec Ideal S1024 .f32)
    (p : Fin 512) (q : Fin 1024) :
    (addf (matmul DD none (truncf .bf16 x0 bitsLt_bf16_f32 : FVec Ideal S512x1024 .bf16)
          (shapeCast S1024x1024 w shapeCasts_S1024x1024_S1024x1024 : FVec Ideal S1024x1024 .bf16)
          (constant (F := Ideal) S512x1024 .f32 0x00000000#32))
        (broadcastTo S512x1024 (shapeCast S1x1024 b shapeCasts_S1024_S1x1024 : FVec Ideal S1x1024 .f32) broadcasts_S1x1024_S512x1024)
      : FVec Ideal S512x1024 .f32) (ix2 p q)
      = (∑ k : Fin 1024, x0 (ix2 p k) * w (ix2 k q)) + b (ix1 q) := by
  rw [addf_apply, shapeCast_self,
    Cert.PlainMatmul.matmul_zero_apply DD dd_rank dd_size dd_lhs0 dd_lhs1 dd_rhs0 dd_rhs1 none _ w p q,
    Cert.RowBias.bcastRow_apply _ broadcasts_S1x1024_S512x1024 p q,
    Cert.RowBias.castRow_apply b shapeCasts_S1024_S1x1024 q]
  rfl

theorem qkvPay2_apply (x0 : Vec Ideal S512x1024 .f32) (w : Vec Ideal S1024x1024 .bf16) (b : Vec Ideal S1024 .f32)
    (p : Fin 512) (q : Fin 1024) :
    k0_pay2 x0 w b (ix2 p q) = (∑ k : Fin 1024, x0 (ix2 p k) * w (ix2 k q)) + b (ix1 q) :=
  dense_apply x0 w b p q

theorem qkvPay3_apply (x0 : Vec Ideal S512x1024 .f32) (w : Vec Ideal S1024x1024 .bf16) (b : Vec Ideal S1024 .f32)
    (p : Fin 512) (q : Fin 1024) :
    k0_pay3 x0 w b (ix2 p q) = (∑ k : Fin 1024, x0 (ix2 p k) * w (ix2 k q)) + b (ix1 q) :=
  dense_apply x0 w b p q

theorem qkvPay4_apply (x0 : Vec Ideal S512x1024 .f32) (w : Vec Ideal S1024x1024 .bf16) (b : Vec Ideal S1024 .f32)
    (p : Fin 512) (q : Fin 1024) :
    k0_pay4 x0 w b (ix2 p q) = (∑ k : Fin 1024, x0 (ix2 p k) * w (ix2 k q)) + b (ix1 q) :=
  dense_apply x0 w b p q

/-! ## The windows' blocks as entries of the arrays the region finds -/

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The printed index maps, decided over the grid: the activations' and the outputs' row block is the point's number,
    every other block index is zero (the weights and biases are whole). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Entry `(p, k)` of the activations' block at point `t` is entry `(512 t + p, k)` of the activations. -/
theorem iblk0_x_apply (c : Dev nD) (t : Fin cfg0.N) (p : Fin 512) (k : Fin 1024) (r : Fin 4096)
    (hr : r.val = t.val * 512 + p.val) :
    (iblk0 V c 0 t : Vec Ideal S512x1024 .f32) (ix2 p k) = (V c main_arg0 : S4096x1024.Idx → EReal) (ix2 r k) := by
  obtain ⟨e0, e1, -⟩ := idx_facts0 t
  show (V c main_arg0 : S4096x1024.Idx → EReal) (((cfg0.win 0).blk t).view.emb (ix2 p k)) = _
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- A weight window's block is the whole matrix. -/
theorem iblk0_1_apply (c : Dev nD) (t : Fin cfg0.N) (k q : Fin 1024) :
    (iblk0 V c 1 t : Vec Ideal S1024x1024 .bf16) (ix2 k q) = (V c main_v0 : S1024x1024.Idx → EReal) (ix2 k q) := by
  obtain ⟨-, -, e2, e3, -⟩ := idx_facts0 t
  show (V c main_v0 : S1024x1024.Idx → EReal) (((cfg0.win 1).blk t).view.emb (ix2 k q)) = _
  congr 1
  funext a
  apply Fin.ext
  match a with
  | ⟨0, _⟩ => show win0_1.index t (0 : Fin 2) * 1024 + 1 * k.val = k.val; omega
  | ⟨1, _⟩ => show win0_1.index t (1 : Fin 2) * 1024 + 1 * q.val = q.val; omega

/-- A weight window's block is the whole matrix. -/
theorem iblk0_3_apply (c : Dev nD) (t : Fin cfg0.N) (k q : Fin 1024) :
    (iblk0 V c 3 t : Vec Ideal S1024x1024 .bf16) (ix2 k q) = (V c main_v1 : S1024x1024.Idx → EReal) (ix2 k q) := by
  obtain ⟨-, -, -, -, -, e2, e3, -⟩ := idx_facts0 t
  show (V c main_v1 : S1024x1024.Idx → EReal) (((cfg0.win 3).blk t).view.emb (ix2 k q)) = _
  congr 1
  funext a
  apply Fin.ext
  match a with
  | ⟨0, _⟩ => show win0_3.index t (0 : Fin 2) * 1024 + 1 * k.val = k.val; omega
  | ⟨1, _⟩ => show win0_3.index t (1 : Fin 2) * 1024 + 1 * q.val = q.val; omega

/-- A weight window's block is the whole matrix. -/
theorem iblk0_5_apply (c : Dev nD) (t : Fin cfg0.N) (k q : Fin 1024) :
    (iblk0 V c 5 t : Vec Ideal S1024x1024 .bf16) (ix2 k q) = (V c main_v2 : S1024x1024.Idx → EReal) (ix2 k q) := by
  obtain ⟨-, -, -, -, -, -, -, -, e2, e3, -⟩ := idx_facts0 t
  show (V c main_v2 : S1024x1024.Idx → EReal) (((cfg0.win 5).blk t).view.emb (ix2 k q)) = _
  congr 1
  funext a
  apply Fin.ext
  match a with
  | ⟨0, _⟩ => show win0_5.index t (0 : Fin 2) * 1024 + 1 * k.val = k.val; omega
  | ⟨1, _⟩ => show win0_5.index t (1 : Fin 2) * 1024 + 1 * q.val = q.val; omega

/-- A bias window's block is the whole vector. -/
theorem iblk0_2_apply (c : Dev nD) (t : Fin cfg0.N) (q : Fin 1024) :
    (iblk0 V c 2 t : Vec Ideal S1024 .f32) (ix1 q) = (V c main_arg2 : S1024.Idx → EReal) (ix1 q) := by
  obtain ⟨-, -, -, -, e2, -⟩ := idx_facts0 t
  show (V c main_arg2 : S1024.Idx → EReal) (((cfg0.win 2).blk t).view.emb (ix1 q)) = _
  congr 1
  funext a
  apply Fin.ext
  match a with
  | ⟨0, _⟩ => show win0_2.index t (0 : Fin 1) * 1024 + 1 * q.val = q.val; omega

/-- A bias window's block is the whole vector. -/
theorem iblk0_4_apply (c : Dev nD) (t : Fin cfg0.N) (q : Fin 1024) :
    (iblk0 V c 4 t : Vec Ideal S1024 .f32) (ix1 q) = (V c main_arg4 : S1024.Idx → EReal) (ix1 q) := by
  obtain ⟨-, -, -, -, -, -, -, e2, -⟩ := idx_facts0 t
  show (V c main_arg4 : S1024.Idx → EReal) (((cfg0.win 4).blk t).view.emb (ix1 q)) = _
  congr 1
  funext a
  apply Fin.ext
  match a with
  | ⟨0, _⟩ => show win0_4.index t (0 : Fin 1) * 1024 + 1 * q.val = q.val; omega

/-- A bias window's block is the whole vector. -/
theorem iblk0_6_apply (c : Dev nD) (t : Fin cfg0.N) (q : Fin 1024) :
    (iblk0 V c 6 t : Vec Ideal S1024 .f32) (ix1 q) = (V c main_arg6 : S1024.Idx → EReal) (ix1 q) := by
  obtain ⟨-, -, -, -, -, -, -, -, -, -, e2, -⟩ := idx_facts0 t
  show (V c main_arg6 : S1024.Idx → EReal) (((cfg0.win 6).blk t).view.emb (ix1 q)) = _
  congr 1
  funext a
  apply Fin.ext
  match a with
  | ⟨0, _⟩ => show win0_6.index t (0 : Fin 1) * 1024 + 1 * q.val = q.val; omega

/-! ## Output window 7 -/

/-- WHAT POINT `t` WRITES BACK into output 0 is block `t` of the dense layer of the whole activations. -/
theorem flushed0_7_eq (c : Dev nD) (t : Fin cfg0.N) :
    (dat0 (F := Ideal) V c).flushed 7 t = ((cfg0.win 7).blk t).view.read (Elt Ideal)
      (fun j => AttnSpec.proj (V c main_arg0) (V c main_v0) (V c main_arg2) (j 0) (j 1) : S4096x1024.Idx → EReal) := by
  show (cfg0.win 7).cut (grid0.coords t) ((dat0 (F := Ideal) V c).after 7 t) = _
  rw [after0_7]
  unfold out0_7
  rw [View.canon_unit_zero zero_off2]
  simp only [View.ld_unit_zero (S := S512x1024) zero_off2, View.ld_unit_zero (S := S1024x1024) zero_off2,
    View.ld_unit_zero (S := S1024) zero_off1]
  obtain ⟨-, -, -, -, -, -, -, -, -, -, -, e0, e1, -⟩ := idx_facts0 t
  funext j
  obtain ⟨p, q, rfl⟩ : ∃ (p : Fin 512) (q : Fin 1024), j = ix2 p q := ⟨j 0, j 1, eq_ix2 j⟩
  refine (qkvPay2_apply _ _ _ p q).trans ?_
  have hi0 : ((((cfg0.win 7).blk t).view.emb (ix2 p q) 0 : Fin 4096)).val = t.val * 512 + p.val := by
    show win0_7.index t (0 : Fin 2) * 512 + 1 * p.val = _; omega
  have hi1 : (((cfg0.win 7).blk t).view.emb (ix2 p q) 1 : Fin 1024) = q :=
    Fin.ext (by show win0_7.index t (1 : Fin 2) * 1024 + 1 * q.val = q.val; omega)
  show _ = AttnSpec.proj (V c main_arg0) (V c main_v0) (V c main_arg2)
    (((cfg0.win 7).blk t).view.emb (ix2 p q) 0) (((cfg0.win 7).blk t).view.emb (ix2 p q) 1)
  rw [hi1]
  unfold AttnSpec.proj
  exact congrArg₂ (· + ·)
    (Finset.sum_congr rfl fun k _ => congrArg₂ (· * ·) (iblk0_x_apply V c t p k _ hi0) (iblk0_1_apply V c t k q))
    (iblk0_2_apply V c t q)

/-- An index of the output array is in point `t`'s block iff each coordinate is in the block's range on its axis. -/
theorem mem_blk0_7 (t : Fin cfg0.N) (i : S4096x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v4_0).slice (win0_7.rect t)).set ↔ _
  rw [View.set_slice_whole, Rect.mem_set_unit]
  exact Iff.rfl

/-- Every index of the output array is in some point's block: row `r` in the block of point `r / 512`. -/
theorem cover0_7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hlt : (i 0).val / 512 < cfg0.N := by show (i 0).val / 512 < grid0.N; rw [N_0]; omega
  obtain ⟨-, -, -, -, -, -, -, -, -, -, -, e0, e1, -⟩ := idx_facts0 ⟨(i 0).val / 512, hlt⟩
  have e0' : win0_7.index ⟨(i 0).val / 512, hlt⟩ (0 : Fin 2) = (i 0).val / 512 := e0
  refine ⟨⟨(i 0).val / 512, hlt⟩, flush0_7 _, ?_⟩
  rw [mem_blk0_7]
  intro a
  match a with
  | ⟨0, _⟩ =>
    show win0_7.index ⟨(i 0).val / 512, hlt⟩ (0 : Fin 2) * 512 ≤ (i 0).val
      ∧ (i 0).val < win0_7.index ⟨(i 0).val / 512, hlt⟩ (0 : Fin 2) * 512 + 512
    omega
  | ⟨1, _⟩ =>
    show win0_7.index ⟨(i 0).val / 512, hlt⟩ (1 : Fin 2) * 1024 ≤ (i 1).val
      ∧ (i 1).val < win0_7.index ⟨(i 0).val / 512, hlt⟩ (1 : Fin 2) * 1024 + 1024
    omega

/-- THE ARRAY after the region: the dense layer of the activations, entry by entry. -/
theorem final0_7 (c : Dev nD) :
    (dat0 (F := Ideal) V c).arrAt 7 cfg0.N
      = (fun j => AttnSpec.proj (V c main_arg0) (V c main_v0) (V c main_arg2) (j 0) (j 1) : S4096x1024.Idx → EReal) :=
  (dat0 (F := Ideal) V c).arrAt_eq_of_cover 7 _ (fun t _ => flushed0_7_eq V c t) cover0_7

/-! ## Output window 8 -/

/-- WHAT POINT `t` WRITES BACK into output 1 is block `t` of the dense layer of the whole activations. -/
theorem flushed0_8_eq (c : Dev nD) (t : Fin cfg0.N) :
    (dat0 (F := Ideal) V c).flushed 8 t = ((cfg0.win 8).blk t).view.read (Elt Ideal)
      (fun j => AttnSpec.proj (V c main_arg0) (V c main_v1) (V c main_arg4) (j 0) (j 1) : S4096x1024.Idx → EReal) := by
  show (cfg0.win 8).cut (grid0.coords t) ((dat0 (F := Ideal) V c).after 8 t) = _
  rw [after0_8]
  unfold out0_8
  rw [View.canon_unit_zero zero_off2]
  simp only [View.ld_unit_zero (S := S512x1024) zero_off2, View.ld_unit_zero (S := S1024x1024) zero_off2,
    View.ld_unit_zero (S := S1024) zero_off1]
  obtain ⟨-, -, -, -, -, -, -, -, -, -, -, -, -, e0, e1, -⟩ := idx_facts0 t
  funext j
  obtain ⟨p, q, rfl⟩ : ∃ (p : Fin 512) (q : Fin 1024), j = ix2 p q := ⟨j 0, j 1, eq_ix2 j⟩
  refine (qkvPay3_apply _ _ _ p q).trans ?_
  have hi0 : ((((cfg0.win 8).blk t).view.emb (ix2 p q) 0 : Fin 4096)).val = t.val * 512 + p.val := by
    show win0_8.index t (0 : Fin 2) * 512 + 1 * p.val = _; omega
  have hi1 : (((cfg0.win 8).blk t).view.emb (ix2 p q) 1 : Fin 1024) = q :=
    Fin.ext (by show win0_8.index t (1 : Fin 2) * 1024 + 1 * q.val = q.val; omega)
  show _ = AttnSpec.proj (V c main_arg0) (V c main_v1) (V c main_arg4)
    (((cfg0.win 8).blk t).view.emb (ix2 p q) 0) (((cfg0.win 8).blk t).view.emb (ix2 p q) 1)
  rw [hi1]
  unfold AttnSpec.proj
  exact congrArg₂ (· + ·)
    (Finset.sum_congr rfl fun k _ => congrArg₂ (· * ·) (iblk0_x_apply V c t p k _ hi0) (iblk0_3_apply V c t k q))
    (iblk0_4_apply V c t q)

/-- An index of the output array is in point `t`'s block iff each coordinate is in the block's range on its axis. -/
theorem mem_blk0_8 (t : Fin cfg0.N) (i : S4096x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v4_1).slice (win0_8.rect t)).set ↔ _
  rw [View.set_slice_whole, Rect.mem_set_unit]
  exact Iff.rfl

/-- Every index of the output array is in some point's block: row `r` in the block of point `r / 512`. -/
theorem cover0_8 (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  have hlt : (i 0).val / 512 < cfg0.N := by show (i 0).val / 512 < grid0.N; rw [N_0]; omega
  obtain ⟨-, -, -, -, -, -, -, -, -, -, -, -, -, e0, e1, -⟩ := idx_facts0 ⟨(i 0).val / 512, hlt⟩
  have e0' : win0_8.index ⟨(i 0).val / 512, hlt⟩ (0 : Fin 2) = (i 0).val / 512 := e0
  refine ⟨⟨(i 0).val / 512, hlt⟩, flush0_8 _, ?_⟩
  rw [mem_blk0_8]
  intro a
  match a with
  | ⟨0, _⟩ =>
    show win0_8.index ⟨(i 0).val / 512, hlt⟩ (0 : Fin 2) * 512 ≤ (i 0).val
      ∧ (i 0).val < win0_8.index ⟨(i 0).val / 512, hlt⟩ (0 : Fin 2) * 512 + 512
    omega
  | ⟨1, _⟩ =>
    show win0_8.index ⟨(i 0).val / 512, hlt⟩ (1 : Fin 2) * 1024 ≤ (i 1).val
      ∧ (i 1).val < win0_8.index ⟨(i 0).val / 512, hlt⟩ (1 : Fin 2) * 1024 + 1024
    omega

/-- THE ARRAY after the region: the dense layer of the activations, entry by entry. -/
theorem final0_8 (c : Dev nD) :
    (dat0 (F := Ideal) V c).arrAt 8 cfg0.N
      = (fun j => AttnSpec.proj (V c main_arg0) (V c main_v1) (V c main_arg4) (j 0) (j 1) : S4096x1024.Idx → EReal) :=
  (dat0 (F := Ideal) V c).arrAt_eq_of_cover 8 _ (fun t _ => flushed0_8_eq V c t) cover0_8

/-! ## Output window 9 -/

/-- WHAT POINT `t` WRITES BACK into output 2 is block `t` of the dense layer of the whole activations. -/
theorem flushed0_9_eq (c : Dev nD) (t : Fin cfg0.N) :
    (dat0 (F := Ideal) V c).flushed 9 t = ((cfg0.win 9).blk t).view.read (Elt Ideal)
      (fun j => AttnSpec.proj (V c main_arg0) (V c main_v2) (V c main_arg6) (j 0) (j 1) : S4096x1024.Idx → EReal) := by
  show (cfg0.win 9).cut (grid0.coords t) ((dat0 (F := Ideal) V c).after 9 t) = _
  rw [after0_9]
  unfold out0_9
  rw [View.canon_unit_zero zero_off2]
  simp only [View.ld_unit_zero (S := S512x1024) zero_off2, View.ld_unit_zero (S := S1024x1024) zero_off2,
    View.ld_unit_zero (S := S1024) zero_off1]
  obtain ⟨-, -, -, -, -, -, -, -, -, -, -, -, -, -, -, e0, e1⟩ := idx_facts0 t
  funext j
  obtain ⟨p, q, rfl⟩ : ∃ (p : Fin 512) (q : Fin 1024), j = ix2 p q := ⟨j 0, j 1, eq_ix2 j⟩
  refine (qkvPay4_apply _ _ _ p q).trans ?_
  have hi0 : ((((cfg0.win 9).blk t).view.emb (ix2 p q) 0 : Fin 4096)).val = t.val * 512 + p.val := by
    show win0_9.index t (0 : Fin 2) * 512 + 1 * p.val = _; omega
  have hi1 : (((cfg0.win 9).blk t).view.emb (ix2 p q) 1 : Fin 1024) = q :=
    Fin.ext (by show win0_9.index t (1 : Fin 2) * 1024 + 1 * q.val = q.val; omega)
  show _ = AttnSpec.proj (V c main_arg0) (V c main_v2) (V c main_arg6)
    (((cfg0.win 9).blk t).view.emb (ix2 p q) 0) (((cfg0.win 9).blk t).view.emb (ix2 p q) 1)
  rw [hi1]
  unfold AttnSpec.proj
  exact congrArg₂ (· + ·)
    (Finset.sum_congr rfl fun k _ => congrArg₂ (· * ·) (iblk0_x_apply V c t p k _ hi0) (iblk0_5_apply V c t k q))
    (iblk0_6_apply V c t q)

/-- An index of the output array is in point `t`'s block iff each coordinate is in the block's range on its axis. -/
theorem mem_blk0_9 (t : Fin cfg0.N) (i : S4096x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v4_2).slice (win0_9.rect t)).set ↔ _
  rw [View.set_slice_whole, Rect.mem_set_unit]
  exact Iff.rfl

/-- Every index of the output array is in some point's block: row `r` in the block of point `r / 512`. -/
theorem cover0_9 (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hlt : (i 0).val / 512 < cfg0.N := by show (i 0).val / 512 < grid0.N; rw [N_0]; omega
  obtain ⟨-, -, -, -, -, -, -, -, -, -, -, -, -, -, -, e0, e1⟩ := idx_facts0 ⟨(i 0).val / 512, hlt⟩
  have e0' : win0_9.index ⟨(i 0).val / 512, hlt⟩ (0 : Fin 2) = (i 0).val / 512 := e0
  refine ⟨⟨(i 0).val / 512, hlt⟩, flush0_9 _, ?_⟩
  rw [mem_blk0_9]
  intro a
  match a with
  | ⟨0, _⟩ =>
    show win0_9.index ⟨(i 0).val / 512, hlt⟩ (0 : Fin 2) * 512 ≤ (i 0).val
      ∧ (i 0).val < win0_9.index ⟨(i 0).val / 512, hlt⟩ (0 : Fin 2) * 512 + 512
    omega
  | ⟨1, _⟩ =>
    show win0_9.index ⟨(i 0).val / 512, hlt⟩ (1 : Fin 2) * 1024 ≤ (i 1).val
      ∧ (i 1).val < win0_9.index ⟨(i 0).val / 512, hlt⟩ (1 : Fin 2) * 1024 + 1024
    omega

/-- THE ARRAY after the region: the dense layer of the activations, entry by entry. -/
theorem final0_9 (c : Dev nD) :
    (dat0 (F := Ideal) V c).arrAt 9 cfg0.N
      = (fun j => AttnSpec.proj (V c main_arg0) (V c main_v2) (V c main_arg6) (j 0) (j 1) : S4096x1024.Idx → EReal) :=
  (dat0 (F := Ideal) V c).arrAt_eq_of_cover 9 _ (fun t _ => flushed0_9_eq V c t) cover0_9

end Cert.KernelIdeal.Fr

end
-- ==== Proof.KIValue.lean ====
/-
  The kernel program's result as the specification's function of the launch memory.

  The host stretch before the regions changes the float format of the four weight matrices, which on the extended
  reals is the identity, and writes no argument array: each array the projection region reads is the launch contents
  of an argument. That region leaves the three projections of the activations; the attention region reads them, the
  output weights and the output bias, and leaves the specification's output. Composed: the result array is the
  specification's function, in the kernel's arrangement, of the nine argument arrays as launched.
-/
import proofs.«117020_j53815940219243_2_alg».proof.Proof.KIRun
import proofs.«117020_j53815940219243_2_alg».proof.Proof.KIFinal1
import proofs.«117020_j53815940219243_2_alg».proof.Proof.KIRegion0Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-! ## After the host stretch -/

theorem V1_main_arg0 (c : Dev nD) :
    (V1 m ρ c main_arg0 : AttnSpec.Arr2 4096 1024) = m ((c : Thread nD τ).loc main_arg0) := by
  dsimp only [V1, W1, W0]; after_results

theorem V1_main_arg2 (c : Dev nD) :
    (V1 m ρ c main_arg2 : AttnSpec.Arr1 1024) = m ((c : Thread nD τ).loc main_arg2) := by
  dsimp only [V1, W1, W0]; after_results

theorem V1_main_arg4 (c : Dev nD) :
    (V1 m ρ c main_arg4 : AttnSpec.Arr1 1024) = m ((c : Thread nD τ).loc main_arg4) := by
  dsimp only [V1, W1, W0]; after_results

theorem V1_main_arg6 (c : Dev nD) :
    (V1 m ρ c main_arg6 : AttnSpec.Arr1 1024) = m ((c : Thread nD τ).loc main_arg6) := by
  dsimp only [V1, W1, W0]; after_results

theorem V1_main_arg8 (c : Dev nD) :
    (V1 m ρ c main_arg8 : AttnSpec.Arr1 64) = m ((c : Thread nD τ).loc main_arg8) := by
  dsimp only [V1, W1, W0]; after_results

/-- The query weights in the narrower format are the launch contents of the query weights. -/
theorem V1_main_v0 (c : Dev nD) :
    (V1 m ρ c main_v0 : AttnSpec.Arr2 1024 1024) = (m ((c : Thread nD τ).loc main_arg1) : AttnSpec.Arr2 1024 1024) := by
  dsimp only [V1, W1, W0]; after_results; rfl

theorem V1_main_v1 (c : Dev nD) :
    (V1 m ρ c main_v1 : AttnSpec.Arr2 1024 1024) = (m ((c : Thread nD τ).loc main_arg3) : AttnSpec.Arr2 1024 1024) := by
  dsimp only [V1, W1, W0]; after_results; rfl

theorem V1_main_v2 (c : Dev nD) :
    (V1 m ρ c main_v2 : AttnSpec.Arr2 1024 1024) = (m ((c : Thread nD τ).loc main_arg5) : AttnSpec.Arr2 1024 1024) := by
  dsimp only [V1, W1, W0]; after_results; rfl

theorem V1_main_v3 (c : Dev nD) :
    (V1 m ρ c main_v3 : AttnSpec.Arr2 1024 64) = (m ((c : Thread nD τ).loc main_arg7) : AttnSpec.Arr2 1024 64) := by
  dsimp only [V1, W1, W0]; after_results; rfl

/-! ## After the projection region -/

/-- The query array the attention region is entered with is the query projection of the launch contents. -/
theorem Qa_V2 (c : Dev nD) :
    Qa (V2 m ρ) c = AttnSpec.proj (m ((c : Thread nD τ).loc main_arg0)) (m ((c : Thread nD τ).loc main_arg1))
      (m ((c : Thread nD τ).loc main_arg2)) := by
  funext i d
  have h : (V2 m ρ c main_v4_0 : AttnSpec.Arr2 4096 1024) = (dat0 (F := Ideal) (V1 m ρ) c).arrAt 7 cfg0.N := W2_arr m ρ c 7
  unfold Qa
  rw [h, final0_7]
  show AttnSpec.proj (V1 m ρ c main_arg0) (V1 m ρ c main_v0) (V1 m ρ c main_arg2) i d = _
  rw [V1_main_arg0, V1_main_v0, V1_main_arg2]

theorem Ka_V2 (c : Dev nD) :
    Ka (V2 m ρ) c = AttnSpec.proj (m ((c : Thread nD τ).loc main_arg0)) (m ((c : Thread nD τ).loc main_arg3))
      (m ((c : Thread nD τ).loc main_arg4)) := by
  funext i d
  have h : (V2 m ρ c main_v4_1 : AttnSpec.Arr2 4096 1024) = (dat0 (F := Ideal) (V1 m ρ) c).arrAt 8 cfg0.N := W2_arr m ρ c 8
  unfold Ka
  rw [h, final0_8]
  show AttnSpec.proj (V1 m ρ c main_arg0) (V1 m ρ c main_v1) (V1 m ρ c main_arg4) i d = _
  rw [V1_main_arg0, V1_main_v1, V1_main_arg4]

theorem Va_V2 (c : Dev nD) :
    Va (V2 m ρ) c = AttnSpec.proj (m ((c : Thread nD τ).loc main_arg0)) (m ((c : Thread nD τ).loc main_arg5))
      (m ((c : Thread nD τ).loc main_arg6)) := by
  funext i d
  have h : (V2 m ρ c main_v4_2 : AttnSpec.Arr2 4096 1024) = (dat0 (F := Ideal) (V1 m ρ) c).arrAt 9 cfg0.N := W2_arr m ρ c 9
  unfold Va
  rw [h, final0_9]
  show AttnSpec.proj (V1 m ρ c main_arg0) (V1 m ρ c main_v2) (V1 m ρ c main_arg6) i d = _
  rw [V1_main_arg0, V1_main_v2, V1_main_arg6]

/-- The output weights and the output bias reach the attention region as launched. -/
theorem V2_main_v3 (c : Dev nD) :
    (V2 m ρ c main_v3 : AttnSpec.Arr2 1024 64) = (m ((c : Thread nD τ).loc main_arg7) : AttnSpec.Arr2 1024 64) :=
  (W2_of_ne m ρ c main_v3 (by decide)).trans (V1_main_v3 m ρ c)

theorem V2_main_arg8 (c : Dev nD) :
    (V2 m ρ c main_arg8 : AttnSpec.Arr1 64) = m ((c : Thread nD τ).loc main_arg8) :=
  (W2_of_ne m ρ c main_arg8 (by decide)).trans (V1_main_arg8 m ρ c)

/-! ## The result -/

/-- THE KERNEL'S RESULT is the specification's function of the launch contents of the nine arguments, given the
    attention region's tiles. -/
theorem result_eq_of (c : Dev nD)
    (htile : ∀ (t : Fin cfg1.N) (ht : t.val % 2 = 1) (p : Fin 512) (h : Fin 64),
      (outsAt1 (F := Ideal) (V2 m ρ) c t.val t.isLt).1 (ix2 p h)
        = AttnSpec.out (Qa (V2 m ρ) c) (Ka (V2 m ρ) c) (Va (V2 m ρ) c) (V2 m ρ c main_v3) (V2 m ρ c main_arg8)
            ⟨(t.val / 2) * 512 + p.val, by have := t.isLt; have : cfg1.N = 16 := N_1; omega⟩ h) :
    (dat1 (F := Ideal) (V2 m ρ) c).arrAt 5 cfg1.N
      = AttnSpec.Gk (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  rw [final1_5_of (V2 m ρ) c htile, Qa_V2, Ka_V2, Va_V2, V2_main_v3, V2_main_arg8]
  rfl

end Cert.KernelIdeal.Fr

end
-- ==== Proof.KIRegion1Pieces.lean ====
/-
  What each buffer of the attention region holds after a grid point, as a value: the pieces the two symbolic runs found,
  read back. Every store and every load of the body goes through the whole buffer at zero offsets, so a buffer's last
  store leaves its payload, a load after a store reads that payload, and a load of an untouched input reads the block the
  point was handed. At a block-0 point the three scratch buffers are reset first, so the update reads the reset values;
  at a block-1 point it reads what the point before left, and the output is computed from the numerator and the
  denominator just stored.

  Generic in the float instance: nothing here depends on how a float operation is interpreted.
-/
import proofs.«117020_j53815940219243_2_alg».proof.Proof.KIRegion1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

/-- The two spellings of the zero offsets of a whole-buffer access. -/
theorem hz2 : (![0, 0] : Fin 2 → Nat) = fun _ => 0 := funext fun a => by fin_cases a <;> rfl
theorem hz1 : (![0] : Fin 1 → Nat) = fun _ => 0 := funext fun a => by fin_cases a; rfl

/-! ## A block-0 point: the scratch is reset, then updated from the reset values -/

/-- The running maximum after a block-0 point: the update from the reset maximum. -/
theorem sout1_A_0_eq (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) :
    sout1_A_0 c i arg2 harg2 arg3 harg3 arg4 harg4 arg5 harg5 arg6 harg6 arg7 harg7 arg8 harg8 arg9 harg9 arg10 harg10 hc0 hc1 x0 x1 x2 x3 x4 = k1_pay2 (k1_pay8 x0 x1 k1_pay4) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S512x1) hz2]
  rw [View.readCov_unit_zero (S := S512x1) _ hz2]
  simp only [View.readAt_eq_ld, harg2.read_unread, harg3.read_unread, harg4.read_unread, harg5.read_unread, harg6.read_unread, View.ld_unit_zero (S := S512x1024) hz2, View.ld_unit_zero (S := S2048x1024) hz2]

/-- The running denominator after a block-0 point: the update from the reset maximum and the reset denominator. -/
theorem sout1_A_1_eq (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) :
    sout1_A_1 c i arg2 harg2 arg3 harg3 arg4 harg4 arg5 harg5 arg6 harg6 arg7 harg7 arg8 harg8 arg9 harg9 arg10 harg10 hc0 hc1 x0 x1 x2 x3 x4 = k1_pay11 x0 x1 k1_pay4 k1_pay5 := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S512x1) hz2]
  rw [View.readCov_unit_zero (S := S512x1) _ hz2, View.readCov_unit_zero (S := S512x1) _ hz2]
  simp only [View.readAt_eq_ld, harg2.read_unread, harg3.read_unread, harg4.read_unread, harg5.read_unread, harg6.read_unread, View.ld_unit_zero (S := S512x1024) hz2, View.ld_unit_zero (S := S2048x1024) hz2]

/-- The running numerator after a block-0 point: the update from the reset maximum and the reset numerator. -/
theorem sout1_A_2_eq (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : cond1_0 i) (hc1 : ¬cond1_1 i) (x0 : Vec F S512x1024 .bf16) (x1 : Vec F S2048x1024 .bf16) (x2 : Vec F S2048x1024 .bf16) (x3 : Vec F S1024x64 .bf16) (x4 : Vec F S64 .f32) :
    sout1_A_2 c i arg2 harg2 arg3 harg3 arg4 harg4 arg5 harg5 arg6 harg6 arg7 harg7 arg8 harg8 arg9 harg9 arg10 harg10 hc0 hc1 x0 x1 x2 x3 x4 = k1_pay1 (k1_pay12 x0 x1 k1_pay4 x2 k1_pay6) := by
  unfold sout1_A_2
  rw [View.read_writes_eq_canon _ _ _ (scover1_A_2 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S512x1024) hz2]
  rw [View.readCov_unit_zero (S := S512x1) _ hz2, View.readCov_unit_zero (S := S512x1024) _ hz2]
  simp only [View.readAt_eq_ld, harg2.read_unread, harg3.read_unread, harg4.read_unread, harg5.read_unread, harg6.read_unread, View.ld_unit_zero (S := S512x1024) hz2, View.ld_unit_zero (S := S2048x1024) hz2]

/-! ## A block-1 point: the same update from the carried scratch, then the tile's output -/

/-- The running maximum after a block-1 point. -/
theorem sout1_B_0_eq (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) :
    sout1_B_0 c i arg2 harg2 arg3 harg3 arg4 harg4 arg5 harg5 arg6 harg6 arg7 harg7 arg8 harg8 arg9 harg9 arg10 harg10 hc0 hc1 x0 x1 x2 x3 x4 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  rw [View.canon_unit_zero (S := S512x1) hz2]
  simp only [View.readAt_eq_ld, harg2.read_unread, harg3.read_unread, harg4.read_unread, harg5.read_unread, harg6.read_unread, harg8.read_unread, harg9.read_unread, harg10.read_unread, View.ld_unit_zero (S := S512x1024) hz2, View.ld_unit_zero (S := S2048x1024) hz2, View.ld_unit_zero (S := S512x1) hz2, View.ld_unit_zero (S := S1024x64) hz2, View.ld_unit_zero (S := S64) hz1]

/-- The running denominator after a block-1 point. -/
theorem sout1_B_1_eq (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) :
    sout1_B_1 c i arg2 harg2 arg3 harg3 arg4 harg4 arg5 harg5 arg6 harg6 arg7 harg7 arg8 harg8 arg9 harg9 arg10 harg10 hc0 hc1 x0 x1 x2 x3 x4 xs0 xs1 xs2 = k1_pay11 x0 x1 xs0 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  rw [View.canon_unit_zero (S := S512x1) hz2]
  simp only [View.readAt_eq_ld, harg2.read_unread, harg3.read_unread, harg4.read_unread, harg5.read_unread, harg6.read_unread, harg8.read_unread, harg9.read_unread, harg10.read_unread, View.ld_unit_zero (S := S512x1024) hz2, View.ld_unit_zero (S := S2048x1024) hz2, View.ld_unit_zero (S := S512x1) hz2, View.ld_unit_zero (S := S1024x64) hz2, View.ld_unit_zero (S := S64) hz1]

/-- The running numerator after a block-1 point. -/
theorem sout1_B_2_eq (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) :
    sout1_B_2 c i arg2 harg2 arg3 harg3 arg4 harg4 arg5 harg5 arg6 harg6 arg7 harg7 arg8 harg8 arg9 harg9 arg10 harg10 hc0 hc1 x0 x1 x2 x3 x4 xs0 xs1 xs2 = k1_pay1 (k1_pay12 x0 x1 xs0 x2 xs2) := by
  unfold sout1_B_2
  rw [View.read_writes_eq_canon _ _ _ (scover1_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  rw [View.canon_unit_zero (S := S512x1024) hz2]
  simp only [View.readAt_eq_ld, harg2.read_unread, harg3.read_unread, harg4.read_unread, harg5.read_unread, harg6.read_unread, harg8.read_unread, harg9.read_unread, harg10.read_unread, View.ld_unit_zero (S := S512x1024) hz2, View.ld_unit_zero (S := S2048x1024) hz2, View.ld_unit_zero (S := S512x1) hz2, View.ld_unit_zero (S := S1024x64) hz2, View.ld_unit_zero (S := S64) hz1]

/-- The tile's output at a block-1 point: from the numerator and the denominator just stored, read back. -/
theorem out1_B_5_eq (c : Dev nD) (i : grid1.Coords) (arg2 : Memref sig .tc .vmem S512x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1024x64 .bf16) (harg5 : arg5.IsWhole) (arg6 : Memref sig .tc .vmem S64 .f32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (hc0 : ¬cond1_0 i) (hc1 : cond1_1 i) (x0 : Vec F S512x1024 .bf16) (x1 : Vec F S2048x1024 .bf16) (x2 : Vec F S2048x1024 .bf16) (x3 : Vec F S1024x64 .bf16) (x4 : Vec F S64 .f32) (xs0 : Vec F S512x1 .f32) (xs1 : Vec F S512x1 .f32) (xs2 : Vec F S512x1024 .f32) :
    out1_B_5 c i arg2 harg2 arg3 harg3 arg4 harg4 arg5 harg5 arg6 harg6 arg7 harg7 arg8 harg8 arg9 harg9 arg10 harg10 hc0 hc1 x0 x1 x2 x3 x4 xs0 xs1 xs2 = k1_pay3 (k1_pay1 (k1_pay12 x0 x1 xs0 x2 xs2)) (k1_pay11 x0 x1 xs0 xs1) x3 x4 := by
  unfold out1_B_5
  rw [View.read_writes_eq_canon _ _ _ (cover1_B_5 c i arg2 harg2 arg3 harg3 arg4 harg4 arg5 harg5 arg6 harg6 arg7 harg7 arg8 harg8 arg9 harg9 arg10 harg10 hc0 hc1 x0 x1 x2 x3 x4 xs0 xs1 xs2)]
  unfold kernelRun1_B
  dsimp only
  sl_unfold_words
  rw [View.canon_unit_zero (S := S512x64) hz2]
  rw [View.readCov_unit_zero (S := S512x1024) _ hz2, View.readCov_unit_zero (S := S512x1) _ hz2]
  simp only [View.readAt_eq_ld, harg2.read_unread, harg3.read_unread, harg4.read_unread, harg5.read_unread, harg6.read_unread, harg8.read_unread, harg9.read_unread, harg10.read_unread, View.ld_unit_zero (S := S512x1024) hz2, View.ld_unit_zero (S := S2048x1024) hz2, View.ld_unit_zero (S := S512x1) hz2, View.ld_unit_zero (S := S1024x64) hz2, View.ld_unit_zero (S := S64) hz1]

end Cert.KernelIdeal.Fr
end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.KIRegion1Pay.lean ====
/- The attention call's pure payloads read at an entry, on the extended reals: the score product of a query block with
   a key block, the running maximum, the rescaling factor, the exponentials, the running denominator and numerator, and
   the closing projection. Each statement is about values only; nothing here mentions memory. -/
import proofs.«117020_j53815940219243_2_alg».proof.Proof.Gen.KernelIdeal.Skeleton
import proofs.«117020_j53815940219243_2_alg».proof.Proof.LibPlainMatmul
import proofs.«117020_j53815940219243_2_alg».proof.Proof.LibRowLayout
import proofs.«117020_j53815940219243_2_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.ValueIdx

/-! ## Words as extended reals -/

/-- The word of negative infinity. -/
theorem ofBits_neg_inf_f32 : Ideal.ofBits .f32 0xFF800000#32 = (⊥ : EReal) := by simp [Ideal.ofBits, Ideal.ieee]

/-- The word of one eighth. -/
theorem ofBits_eighth_f32 : Ideal.ofBits .f32 0x3E000000#32 = ((1 / 8 : ℝ) : EReal) := by
  simp [Ideal.ofBits, Ideal.ieee, -EReal.coe_mul]; norm_num

/-! ## The score product: a query block against a key block, both read along their feature axis -/

local notation "DS" => dot_S512x1024_S2048x1024_S512x2048_1_1_0_0_n_n

theorem ds_rank : (DS).contr.rank = 1 := rfl

theorem ds_size : (DS).contr.size ⟨0, by rw [ds_rank]; exact Nat.one_pos⟩ = 1024 := rfl

theorem ds_lhs0 (j : S512x2048.Idx) (q : (DS).contr.Idx) : ((DS).lhsIdx j q 0).val = (j 0).val := by
  unfold DotDims.lhsIdx
  rw [dif_neg (show ¬(0 : Fin 2) ∈ (DS).lhsBatch from List.not_mem_nil),
    dif_pos (show (0 : Fin 2) ∈ (DS).lhsNonContracting from List.mem_singleton.mpr rfl)]
  rfl

theorem ds_lhs1 (j : S512x2048.Idx) (q : (DS).contr.Idx) :
    ((DS).lhsIdx j q 1).val = (q ⟨0, by rw [ds_rank]; exact Nat.one_pos⟩).val :=
  (DS).lhsIdx_val_of_single rfl j q

theorem ds_rhs0 (j : S512x2048.Idx) (q : (DS).contr.Idx) : ((DS).rhsIdx j q 0).val = (j 1).val := by
  unfold DotDims.rhsIdx
  rw [dif_neg (show ¬(0 : Fin 2) ∈ (DS).rhsBatch from List.not_mem_nil),
    dif_pos (show (0 : Fin 2) ∈ (DS).rhsNonContracting from List.mem_singleton.mpr rfl)]
  rfl

theorem ds_rhs1 (j : S512x2048.Idx) (q : (DS).contr.Idx) :
    ((DS).rhsIdx j q 1).val = (q ⟨0, by rw [ds_rank]; exact Nat.one_pos⟩).val :=
  (DS).rhsIdx_val_of_single rfl j q

/-- Entry `(p, j)` of the product into the zero accumulator: row `p` of the left block against ROW `j` of the right one. -/
theorem scoreMatmul_apply (l : FVec Ideal S512x1024 .bf16) (r : FVec Ideal S2048x1024 .bf16) (p : Fin 512) (j : Fin 2048) :
    matmul DS none l r (constant (F := Ideal) S512x2048 .f32 0x00000000#32) (ix2 p j)
      = ∑ d : Fin 1024, l (ix2 p d) * r (ix2 j d) := by
  refine (Ideal.matmul_constant_zero_apply DS none l r (ix2 p j)).trans ?_
  rw [← Equiv.sum_comp (contrEquiv1 DS 1024 ds_rank ds_size).symm]
  refine Finset.sum_congr rfl fun k _ => ?_
  have hk := contrEquiv1_symm_val DS 1024 ds_rank ds_size k
  have el : (DS).lhsIdx (ix2 p j) ((contrEquiv1 DS 1024 ds_rank ds_size).symm k) = ix2 p k := funext fun a => Fin.ext (by
    match a with
    | ⟨0, _⟩ => exact ds_lhs0 _ _
    | ⟨1, _⟩ => exact (ds_lhs1 _ _).trans hk)
  have er : (DS).rhsIdx (ix2 p j) ((contrEquiv1 DS 1024 ds_rank ds_size).symm k) = ix2 j k := funext fun a => Fin.ext (by
    match a with
    | ⟨0, _⟩ => exact ds_rhs0 _ _
    | ⟨1, _⟩ => exact (ds_rhs1 _ _).trans hk)
  rw [el, er]

/-- The scores of a query block against a key block. -/
theorem pay7_apply (x0 : Vec Ideal S512x1024 .bf16) (x1 : Vec Ideal S2048x1024 .bf16) (p : Fin 512) (j : Fin 2048) :
    k1_pay7 x0 x1 (ix2 p j) = ∑ d : Fin 1024, x0 (ix2 p d) * x1 (ix2 j d) := by
  unfold k1_pay7
  simp only [shapeCast_self]
  exact scoreMatmul_apply x0 x1 p j

/-! ## A maximum over the lanes -/

/-- The vector unit's maximum over the lanes (its accumulator the word of negative infinity) is, in row `p`, the greatest
    of the row's `n` entries, from negative infinity. -/
theorem laneMax_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0xFF800000#32 : BitVec 32) = FKind.maximumf.neutral .f32 hφ) (p : Fin B) :
    multiReduction .maximumf [(1 : Fin 2)] (⟨1, ![B]⟩ : Shape) v 0xFF800000#32 h hφ hacc (ix1 p)
      = (Finset.univ : Finset (Fin n)).fold max (⊥ : EReal) (fun k => v (ix2 p k)) := by
  refine (Ideal.multiReduction_maximumf_single v 0xFF800000#32 h hφ hacc (ix1 p)).trans ?_
  show (Finset.univ : Finset (Fin n)).fold max (Ideal.ofBits .f32 0xFF800000#32) (v ∘ h.lift (ix1 p)) = _
  rw [ofBits_neg_inf_f32]
  refine Finset.fold_congr fun k _ => ?_
  exact congrArg v (funext fun a => Fin.ext (by match a with | ⟨0, _⟩ => rfl | ⟨1, _⟩ => rfl))

/-- The running maximum after a key block: the carried maximum against the block's greatest score. -/
theorem pay8_apply (x0 : Vec Ideal S512x1024 .bf16) (x1 : Vec Ideal S2048x1024 .bf16) (ms : Vec Ideal S512x1 .f32) (p : Fin 512) :
    k1_pay8 x0 x1 ms (ix2 p (0 : Fin 1))
      = max (ms (ix2 p (0 : Fin 1))) ((Finset.univ : Finset (Fin 2048)).fold max (⊥ : EReal) (fun j => k1_pay7 x0 x1 (ix2 p j))) := by
  unfold k1_pay8
  refine (maximumf_apply (s := S512x1) (φ := .f32) ms _ (ix2 p (0 : Fin 1))).trans ?_
  refine congrArg (max (ms (ix2 p (0 : Fin 1)))) ?_
  exact (Cert.RowLayout.castCol_apply _ shapeCasts_S512_S512x1 p).trans
    (laneMax_apply (k1_pay7 x0 x1) reduces_S512x2048_S512 _ _ p)

/-! ## The rescaling factor and the exponentials -/

/-- The factor that rescales the carried state: the exponential of the carried maximum less the new one. -/
theorem pay9_apply (x0 : Vec Ideal S512x1024 .bf16) (x1 : Vec Ideal S2048x1024 .bf16) (ms : Vec Ideal S512x1 .f32) (p : Fin 512) :
    k1_pay9 x0 x1 ms (ix2 p (0 : Fin 1))
      = Ideal.exp (ms (ix2 p (0 : Fin 1)) - k1_pay8 x0 x1 ms (ix2 p (0 : Fin 1))) := rfl

/-- A score's weight: the exponential of the score less the new maximum of its row. -/
theorem pay10_apply (x0 : Vec Ideal S512x1024 .bf16) (x1 : Vec Ideal S2048x1024 .bf16) (ms : Vec Ideal S512x1 .f32)
    (p : Fin 512) (j : Fin 2048) :
    k1_pay10 x0 x1 ms (ix2 p j)
      = Ideal.exp (k1_pay7 x0 x1 (ix2 p j) - k1_pay8 x0 x1 ms (ix2 p (0 : Fin 1))) := by
  unfold k1_pay10
  exact congrArg (fun t => Ideal.exp (k1_pay7 x0 x1 (ix2 p j) - t))
    (Cert.RowLayout.bcastCol_apply (k1_pay8 x0 x1 ms) broadcasts_S512x1_S512x2048 p j)

/-! ## The running denominator and numerator -/

/-- The denominator after a key block: the carried one rescaled, plus the block's weights summed. -/
theorem pay11_apply (x0 : Vec Ideal S512x1024 .bf16) (x1 : Vec Ideal S2048x1024 .bf16) (ms ls : Vec Ideal S512x1 .f32) (p : Fin 512) :
    k1_pay11 x0 x1 ms ls (ix2 p (0 : Fin 1))
      = k1_pay9 x0 x1 ms (ix2 p (0 : Fin 1)) * ls (ix2 p (0 : Fin 1)) + ∑ j : Fin 2048, k1_pay10 x0 x1 ms (ix2 p j) := by
  unfold k1_pay11
  simp only [shapeCast_self]
  refine (addf_apply (s := S512x1) (φ := .f32) _ _ (ix2 p (0 : Fin 1))).trans ?_
  refine congrArg (k1_pay9 x0 x1 ms (ix2 p (0 : Fin 1)) * ls (ix2 p (0 : Fin 1)) + ·) ?_
  exact (Cert.RowLayout.castCol_apply _ shapeCasts_S512_S512x1 p).trans
    (Cert.RowLayout.laneSum_apply (k1_pay10 x0 x1 ms) reduces_S512x2048_S512 _ _ p)

local notation "DP" => dot_S512x2048_S2048x1024_S512x1024_1_0_0_1_n_n

theorem dp_rank : (DP).contr.rank = 1 := rfl

theorem dp_size : (DP).contr.size ⟨0, by rw [dp_rank]; exact Nat.one_pos⟩ = 2048 := rfl

theorem dp_lhs0 (j : S512x1024.Idx) (q : (DP).contr.Idx) : ((DP).lhsIdx j q 0).val = (j 0).val := by
  unfold DotDims.lhsIdx
  rw [dif_neg (show ¬(0 : Fin 2) ∈ (DP).lhsBatch from List.not_mem_nil),
    dif_pos (show (0 : Fin 2) ∈ (DP).lhsNonContracting from List.mem_singleton.mpr rfl)]
  rfl

theorem dp_lhs1 (j : S512x1024.Idx) (q : (DP).contr.Idx) :
    ((DP).lhsIdx j q 1).val = (q ⟨0, by rw [dp_rank]; exact Nat.one_pos⟩).val :=
  (DP).lhsIdx_val_of_single rfl j q

theorem dp_rhs0 (j : S512x1024.Idx) (q : (DP).contr.Idx) :
    ((DP).rhsIdx j q 0).val = (q ⟨0, by rw [dp_rank]; exact Nat.one_pos⟩).val :=
  (DP).rhsIdx_val_of_single rfl j q

theorem dp_rhs1 (j : S512x1024.Idx) (q : (DP).contr.Idx) : ((DP).rhsIdx j q 1).val = (j 1).val := by
  unfold DotDims.rhsIdx
  rw [dif_neg (show ¬(1 : Fin 2) ∈ (DP).rhsBatch from List.not_mem_nil),
    dif_pos (show (1 : Fin 2) ∈ (DP).rhsNonContracting from List.mem_singleton.mpr rfl)]
  rfl

/-- The numerator after a key block: the carried one rescaled, plus the block's weights applied to the value block. -/
theorem pay12_apply (x0 : Vec Ideal S512x1024 .bf16) (x1 : Vec Ideal S2048x1024 .bf16) (ms : Vec Ideal S512x1 .f32)
    (x2 : Vec Ideal S2048x1024 .bf16) (acc : Vec Ideal S512x1024 .f32) (p : Fin 512) (d : Fin 1024) :
    k1_pay12 x0 x1 ms x2 acc (ix2 p d)
      = k1_pay9 x0 x1 ms (ix2 p (0 : Fin 1)) * acc (ix2 p d) + ∑ j : Fin 2048, k1_pay10 x0 x1 ms (ix2 p j) * x2 (ix2 j d) := by
  unfold k1_pay12
  simp only [shapeCast_self]
  refine (addf_apply (s := S512x1024) (φ := .f32) _ _ (ix2 p d)).trans ?_
  refine congrArg₂ (· + ·) ?_ ?_
  · refine (mulf_apply (s := S512x1024) (φ := .f32) _ acc (ix2 p d)).trans ?_
    exact congrArg (· * acc (ix2 p d)) (Cert.RowLayout.bcastCol_apply (k1_pay9 x0 x1 ms) broadcasts_S512x1_S512x1024 p d)
  · exact Cert.PlainMatmul.matmul_zero_apply DP dp_rank dp_size dp_lhs0 dp_lhs1 dp_rhs0 dp_rhs1 none
      (truncf .bf16 (k1_pay10 x0 x1 ms) bitsLt_bf16_f32 : FVec Ideal S512x2048 .bf16) x2 p d

/-! ## The closing projection -/

local notation "DO" => dot_S512x1024_S1024x64_S512x64_1_0_0_1_n_n

theorem do_rank : (DO).contr.rank = 1 := rfl

theorem do_size : (DO).contr.size ⟨0, by rw [do_rank]; exact Nat.one_pos⟩ = 1024 := rfl

theorem do_lhs0 (j : S512x64.Idx) (q : (DO).contr.Idx) : ((DO).lhsIdx j q 0).val = (j 0).val := by
  unfold DotDims.lhsIdx
  rw [dif_neg (show ¬(0 : Fin 2) ∈ (DO).lhsBatch from List.not_mem_nil),
    dif_pos (show (0 : Fin 2) ∈ (DO).lhsNonContracting from List.mem_singleton.mpr rfl)]
  rfl

theorem do_lhs1 (j : S512x64.Idx) (q : (DO).contr.Idx) :
    ((DO).lhsIdx j q 1).val = (q ⟨0, by rw [do_rank]; exact Nat.one_pos⟩).val :=
  (DO).lhsIdx_val_of_single rfl j q

theorem do_rhs0 (j : S512x64.Idx) (q : (DO).contr.Idx) :
    ((DO).rhsIdx j q 0).val = (q ⟨0, by rw [do_rank]; exact Nat.one_pos⟩).val :=
  (DO).rhsIdx_val_of_single rfl j q

theorem do_rhs1 (j : S512x64.Idx) (q : (DO).contr.Idx) : ((DO).rhsIdx j q 1).val = (j 1).val := by
  unfold DotDims.rhsIdx
  rw [dif_neg (show ¬(1 : Fin 2) ∈ (DO).rhsBatch from List.not_mem_nil),
    dif_pos (show (1 : Fin 2) ∈ (DO).rhsNonContracting from List.mem_singleton.mpr rfl)]
  rfl

/-- The attended row (numerator over denominator, scaled by one eighth) against a column of the output weights, plus
    the output bias. -/
theorem pay3_apply (acc : Vec Ideal S512x1024 .f32) (ls : Vec Ideal S512x1 .f32) (x3 : Vec Ideal S1024x64 .bf16)
    (x4 : Vec Ideal S64 .f32) (p : Fin 512) (h : Fin 64) :
    k1_pay3 acc ls x3 x4 (ix2 p h)
      = (∑ d : Fin 1024, (Ideal.div (acc (ix2 p d)) (ls (ix2 p (0 : Fin 1))) * ((1 / 8 : ℝ) : EReal)) * x3 (ix2 d h))
        + x4 (ix1 h) := by
  unfold k1_pay3
  simp only [shapeCast_self]
  refine (addf_apply (s := S512x64) (φ := .f32) _ _ (ix2 p h)).trans ?_
  refine congrArg₂ (· + ·) ?_ ?_
  · refine (Cert.PlainMatmul.matmul_zero_apply DO do_rank do_size do_lhs0 do_lhs1 do_rhs0 do_rhs1 none
      (truncf .bf16 (mulf (divf acc (broadcastTo S512x1024 ls broadcasts_S512x1_S512x1024))
        (broadcast S512x1024 (Scalar.ofBits (F := Ideal) .f32 0x3E000000#32))) bitsLt_bf16_f32 : FVec Ideal S512x1024 .bf16)
      x3 p h).trans ?_
    refine Finset.sum_congr rfl fun d _ => ?_
    refine congrArg (· * x3 (ix2 d h)) ?_
    show Ideal.div (acc (ix2 p d)) (broadcastTo S512x1024 ls broadcasts_S512x1_S512x1024 (ix2 p d))
        * Ideal.ofBits .f32 0x3E000000#32 = _
    rw [Cert.RowLayout.bcastCol_apply ls broadcasts_S512x1_S512x1024 p d, ofBits_eighth_f32]
  · exact (Cert.RowBias.bcastRow_apply _ broadcasts_S1x64_S512x64 p h).trans
      (Cert.RowBias.castRow_apply x4 shapeCasts_S64_S1x64 h)

/-! ## The stores that move a value unchanged, and the initial state -/

/-- A cast to the same shape is the value. -/
theorem pay1_eq (v : FVec Ideal S512x1024 .f32) : k1_pay1 v = v := shapeCast_self v _

theorem pay2_eq (v : FVec Ideal S512x1 .f32) : k1_pay2 v = v := shapeCast_self v _

/-- The maximum starts at negative infinity, -/
theorem pay4_apply (p : Fin 512) : k1_pay4 (F := Ideal) (ix2 p (0 : Fin 1)) = (⊥ : EReal) := by
  unfold k1_pay4
  simp only [shapeCast_self]
  exact ofBits_neg_inf_f32

/-- the denominator at zero, -/
theorem pay5_apply (p : Fin 512) : k1_pay5 (F := Ideal) (ix2 p (0 : Fin 1)) = (0 : EReal) := by
  unfold k1_pay5
  simp only [shapeCast_self]
  exact Ideal.ofBits_zero_f32

/-- and the numerator at zero. -/
theorem pay6_apply (p : Fin 512) (d : Fin 1024) : k1_pay6 (F := Ideal) (ix2 p d) = (0 : EReal) := by
  unfold k1_pay6
  simp only [shapeCast_self]
  exact Ideal.ofBits_zero_f32

end Cert.KernelIdeal.Fr

end
-- ==== Proof.KIRegion1Value.lean ====
/-
  The VALUE of the attention region on the extended reals: after a block-1 grid point the output's buffer holds the tile
  of the attention output for the point's 512 query rows.

  A tile is reached in two grid points. The block-0 point resets the running maximum, denominator and numerator of each
  row to negative infinity, zero and zero, then updates them with the first 2048 keys and values; the block-1 point
  updates them with the other 2048 and divides, scales by one eighth, projects and adds the bias. Each update moves the
  maximum to the greater of itself and the block's greatest score, rescales the denominator and the numerator by the
  exponential of the old maximum less the new one, and adds the block's exponentials of scores less the new maximum
  (weighted by the values for the numerator). Written index by index this is, operation for operation, the
  specification's two-block state; the blocks a point is handed are the rows `512 (t / 2) + ·` of the query array and
  the rows `2048 (t % 2) + ·` of the key and value arrays.
-/
import proofs.«117020_j53815940219243_2_alg».proof.Proof.KIRegion1Pieces
import proofs.«117020_j53815940219243_2_alg».proof.Proof.KIArrays
import proofs.«117020_j53815940219243_2_alg».proof.Proof.KIRegion1Pay
import proofs.«117020_j53815940219243_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)

/-! ## The windows' blocks as entries of the arrays the region finds -/

variable (V : (c : Dev nD) → (b : Ref sig .tc) → Buf (Elt Ideal) ((c : Thread nD τ).loc b))

/-- The printed index maps, decided over the grid: the query tile is the point's number halved, the key/value block its
    parity, every other block index is zero (the closing weights and bias are whole). -/
theorem idx_facts1 : ∀ t : Fin cfg1.N,
    win1_0.index t (0 : Fin 2) = t.val / 2 ∧ win1_0.index t (1 : Fin 2) = 0
    ∧ win1_1.index t (0 : Fin 2) = t.val % 2 ∧ win1_1.index t (1 : Fin 2) = 0
    ∧ win1_2.index t (0 : Fin 2) = t.val % 2 ∧ win1_2.index t (1 : Fin 2) = 0
    ∧ win1_3.index t (0 : Fin 2) = 0 ∧ win1_3.index t (1 : Fin 2) = 0 ∧ win1_4.index t (0 : Fin 1) = 0 :=
  (by decide +kernel : ∀ t : Fin grid1.N, _)

/-- Entry `(p, d)` of the query block at point `t` is entry `(512 (t / 2) + p, d)` of the query array. -/
theorem iblk1_q_apply (c : Dev nD) (t : Fin cfg1.N) (p : Fin 512) (d : Fin 1024) (r : Fin 4096)
    (hr : r.val = t.val / 2 * 512 + p.val) :
    (iblk1 V c 0 t : Vec Ideal S512x1024 .bf16) (ix2 p d) = Qa V c r d := by
  obtain ⟨e0, e1, -⟩ := idx_facts1 t
  unfold Qa
  show (V c main_v4_0 : S4096x1024.Idx → EReal) (((cfg1.win 0).blk t).view.emb (ix2 p d)) = _
  congr 1
  funext a
  apply Fin.ext
  match a with
  | ⟨0, _⟩ => show win1_0.index t (0 : Fin 2) * 512 + 1 * p.val = r.val; omega
  | ⟨1, _⟩ => show win1_0.index t (1 : Fin 2) * 1024 + 1 * d.val = d.val; omega

/-- Entry `(j, d)` of the key block at point `t` is row `2048 (t % 2) + j` of the key array. -/
theorem iblk1_k_apply (c : Dev nD) (t : Fin cfg1.N) (j : Fin 2048) (d : Fin 1024) (r : Fin 4096)
    (hr : r.val = t.val % 2 * 2048 + j.val) :
    (iblk1 V c 1 t : Vec Ideal S2048x1024 .bf16) (ix2 j d) = Ka V c r d := by
  obtain ⟨-, -, e0, e1, -⟩ := idx_facts1 t
  unfold Ka
  show (V c main_v4_1 : S4096x1024.Idx → EReal) (((cfg1.win 1).blk t).view.emb (ix2 j d)) = _
  congr 1
  funext a
  apply Fin.ext
  match a with
  | ⟨0, _⟩ => show win1_1.index t (0 : Fin 2) * 2048 + 1 * j.val = r.val; omega
  | ⟨1, _⟩ => show win1_1.index t (1 : Fin 2) * 1024 + 1 * d.val = d.val; omega

/-- Entry `(j, d)` of the value block at point `t` is row `2048 (t % 2) + j` of the value array. -/
theorem iblk1_v_apply (c : Dev nD) (t : Fin cfg1.N) (j : Fin 2048) (d : Fin 1024) (r : Fin 4096)
    (hr : r.val = t.val % 2 * 2048 + j.val) :
    (iblk1 V c 2 t : Vec Ideal S2048x1024 .bf16) (ix2 j d) = Va V c r d := by
  obtain ⟨-, -, -, -, e0, e1, -⟩ := idx_facts1 t
  unfold Va
  show (V c main_v4_2 : S4096x1024.Idx → EReal) (((cfg1.win 2).blk t).view.emb (ix2 j d)) = _
  congr 1
  funext a
  apply Fin.ext
  match a with
  | ⟨0, _⟩ => show win1_2.index t (0 : Fin 2) * 2048 + 1 * j.val = r.val; omega
  | ⟨1, _⟩ => show win1_2.index t (1 : Fin 2) * 1024 + 1 * d.val = d.val; omega

/-- The closing weights' block is the whole matrix. -/
theorem iblk1_wo_apply (c : Dev nD) (t : Fin cfg1.N) (d : Fin 1024) (h : Fin 64) :
    (iblk1 V c 3 t : Vec Ideal S1024x64 .bf16) (ix2 d h) = (V c main_v3 : AttnSpec.Arr2 1024 64) (ix2 d h) := by
  obtain ⟨-, -, -, -, -, -, e0, e1, -⟩ := idx_facts1 t
  show (V c main_v3 : S1024x64.Idx → EReal) (((cfg1.win 3).blk t).view.emb (ix2 d h)) = _
  congr 1
  funext a
  apply Fin.ext
  match a with
  | ⟨0, _⟩ => show win1_3.index t (0 : Fin 2) * 1024 + 1 * d.val = d.val; omega
  | ⟨1, _⟩ => show win1_3.index t (1 : Fin 2) * 64 + 1 * h.val = h.val; omega

/-- The closing bias' block is the whole vector. -/
theorem iblk1_bo_apply (c : Dev nD) (t : Fin cfg1.N) (h : Fin 64) :
    (iblk1 V c 4 t : Vec Ideal S64 .f32) (ix1 h) = (V c main_arg8 : AttnSpec.Arr1 64) (ix1 h) := by
  obtain ⟨-, -, -, -, -, -, -, -, e0⟩ := idx_facts1 t
  show (V c main_arg8 : S64.Idx → EReal) (((cfg1.win 4).blk t).view.emb (ix1 h)) = _
  congr 1
  funext a
  apply Fin.ext
  match a with
  | ⟨0, _⟩ => show win1_4.index t (0 : Fin 1) * 64 + 1 * h.val = h.val; omega

/-! ## One key/value block's update of a row's running state, on abstract arrays

A row `p` of the query block is row `i` of a query array `Q`; the key and value blocks are the rows `key b ·` of arrays
`K` and `W`. The carried maximum, denominator and numerator of the row are `M`, `L`, `A ·`. -/

section Step

variable (Q K W : Fin 4096 → Fin 1024 → EReal) (b : Fin 2) (i : Fin 4096)
variable (x0 : Vec Ideal S512x1024 .bf16) (x1 x2 : Vec Ideal S2048x1024 .bf16)
variable (ms ls : Vec Ideal S512x1 .f32) (acc : Vec Ideal S512x1024 .f32) (p : Fin 512)

/-- The scores of the row against the block's keys. -/
theorem score_of (hq : ∀ d, x0 (ix2 p d) = Q i d) (hk : ∀ j d, x1 (ix2 j d) = K (AttnSpec.key b j) d) (j : Fin 2048) :
    k1_pay7 x0 x1 (ix2 p j) = AttnSpec.score Q K i (AttnSpec.key b j) :=
  (pay7_apply x0 x1 p j).trans (Finset.sum_congr rfl fun d _ => congrArg₂ (· * ·) (hq d) (hk j d))

/-- The row's maximum after the block. -/
theorem max_of (hq : ∀ d, x0 (ix2 p d) = Q i d) (hk : ∀ j d, x1 (ix2 j d) = K (AttnSpec.key b j) d)
    (M : EReal) (hm : ms (ix2 p (0 : Fin 1)) = M) :
    k1_pay8 x0 x1 ms (ix2 p (0 : Fin 1)) = max M (AttnSpec.blockMax Q K b i) := by
  refine (pay8_apply x0 x1 ms p).trans ?_
  rw [hm]
  refine congrArg (max M) ?_
  unfold AttnSpec.blockMax
  exact Finset.fold_congr fun j _ => score_of Q K b i x0 x1 p hq hk j

/-- The factor the carried state is rescaled by. -/
theorem scale_of (hq : ∀ d, x0 (ix2 p d) = Q i d) (hk : ∀ j d, x1 (ix2 j d) = K (AttnSpec.key b j) d)
    (M : EReal) (hm : ms (ix2 p (0 : Fin 1)) = M) :
    k1_pay9 x0 x1 ms (ix2 p (0 : Fin 1)) = Ideal.exp (M - max M (AttnSpec.blockMax Q K b i)) := by
  refine (pay9_apply x0 x1 ms p).trans ?_
  rw [hm, max_of Q K b i x0 x1 ms p hq hk M hm]

/-- The block's weights: the exponentials of the scores less the new maximum. -/
theorem weight_of (hq : ∀ d, x0 (ix2 p d) = Q i d) (hk : ∀ j d, x1 (ix2 j d) = K (AttnSpec.key b j) d)
    (M : EReal) (hm : ms (ix2 p (0 : Fin 1)) = M) (j : Fin 2048) :
    k1_pay10 x0 x1 ms (ix2 p j)
      = Ideal.exp (AttnSpec.score Q K i (AttnSpec.key b j) - max M (AttnSpec.blockMax Q K b i)) := by
  refine (pay10_apply x0 x1 ms p j).trans ?_
  rw [score_of Q K b i x0 x1 p hq hk j, max_of Q K b i x0 x1 ms p hq hk M hm]

/-- The row's denominator after the block. -/
theorem den_of (hq : ∀ d, x0 (ix2 p d) = Q i d) (hk : ∀ j d, x1 (ix2 j d) = K (AttnSpec.key b j) d)
    (M L : EReal) (hm : ms (ix2 p (0 : Fin 1)) = M) (hl : ls (ix2 p (0 : Fin 1)) = L) :
    k1_pay11 x0 x1 ms ls (ix2 p (0 : Fin 1))
      = Ideal.exp (M - max M (AttnSpec.blockMax Q K b i)) * L
        + ∑ j : Fin 2048, Ideal.exp (AttnSpec.score Q K i (AttnSpec.key b j) - max M (AttnSpec.blockMax Q K b i)) := by
  refine (pay11_apply x0 x1 ms ls p).trans ?_
  rw [scale_of Q K b i x0 x1 ms p hq hk M hm, hl]
  exact congrArg (_ + ·) (Finset.sum_congr rfl fun j _ => weight_of Q K b i x0 x1 ms p hq hk M hm j)

/-- The row's numerator after the block. -/
theorem num_of (hq : ∀ d, x0 (ix2 p d) = Q i d) (hk : ∀ j d, x1 (ix2 j d) = K (AttnSpec.key b j) d)
    (hv : ∀ j d, x2 (ix2 j d) = W (AttnSpec.key b j) d)
    (M : EReal) (A : Fin 1024 → EReal) (hm : ms (ix2 p (0 : Fin 1)) = M) (ha : ∀ d, acc (ix2 p d) = A d) (d : Fin 1024) :
    k1_pay12 x0 x1 ms x2 acc (ix2 p d)
      = Ideal.exp (M - max M (AttnSpec.blockMax Q K b i)) * A d
        + ∑ j : Fin 2048, Ideal.exp (AttnSpec.score Q K i (AttnSpec.key b j) - max M (AttnSpec.blockMax Q K b i))
            * W (AttnSpec.key b j) d := by
  refine (pay12_apply x0 x1 ms x2 acc p d).trans ?_
  rw [scale_of Q K b i x0 x1 ms p hq hk M hm, ha d]
  exact congrArg (_ + ·) (Finset.sum_congr rfl fun j _ =>
    congrArg₂ (· * ·) (weight_of Q K b i x0 x1 ms p hq hk M hm j) (hv j d))

end Step

/-! ## A query tile after its two blocks, on abstract arrays -/

section Tile

variable (Q K W : Fin 4096 → Fin 1024 → EReal) (Wo : AttnSpec.Arr2 1024 64) (bo : AttnSpec.Arr1 64) (i : Fin 4096)
variable (q0 : Vec Ideal S512x1024 .bf16) (k0 v0 : Vec Ideal S2048x1024 .bf16)
variable (q1 : Vec Ideal S512x1024 .bf16) (k1 v1 : Vec Ideal S2048x1024 .bf16)
variable (x3 : Vec Ideal S1024x64 .bf16) (x4 : Vec Ideal S64 .f32) (p : Fin 512)

/-- Row `p` of a tile's output, from the reset state through block 0 then block 1, is the attention output of the
    row's query against all keys and values, the blocks being the two halves of the key and value arrays. -/
theorem tile_of
    (hq0 : ∀ d, q0 (ix2 p d) = Q i d) (hk0 : ∀ j d, k0 (ix2 j d) = K (AttnSpec.key 0 j) d)
    (hv0 : ∀ j d, v0 (ix2 j d) = W (AttnSpec.key 0 j) d)
    (hq1 : ∀ d, q1 (ix2 p d) = Q i d) (hk1 : ∀ j d, k1 (ix2 j d) = K (AttnSpec.key 1 j) d)
    (hv1 : ∀ j d, v1 (ix2 j d) = W (AttnSpec.key 1 j) d)
    (hwo : ∀ d h, x3 (ix2 d h) = Wo (ix2 d h)) (hbo : ∀ h, x4 (ix1 h) = bo (ix1 h))
    (S : Vec Ideal S512x1 .f32 × Vec Ideal S512x1 .f32 × Vec Ideal S512x1024 .f32)
    (eS : S = (k1_pay2 (k1_pay8 q0 k0 (k1_pay4 (F := Ideal))), k1_pay11 q0 k0 (k1_pay4 (F := Ideal)) (k1_pay5 (F := Ideal)),
      k1_pay1 (k1_pay12 q0 k0 (k1_pay4 (F := Ideal)) v0 (k1_pay6 (F := Ideal))))) (h : Fin 64) :
    k1_pay3 (k1_pay1 (k1_pay12 q1 k1 S.1 v1 S.2.2)) (k1_pay11 q1 k1 S.1 S.2.1) x3 x4 (ix2 p h)
      = AttnSpec.out Q K W Wo bo i h := by
  subst eS
  dsimp only
  have hm1 : k1_pay2 (k1_pay8 q0 k0 (k1_pay4 (F := Ideal))) (ix2 p (0 : Fin 1)) = AttnSpec.m1 Q K i := by
    rw [pay2_eq]
    exact max_of Q K 0 i q0 k0 (k1_pay4 (F := Ideal)) p hq0 hk0 ⊥ (pay4_apply ..)
  have hl1 : k1_pay11 q0 k0 (k1_pay4 (F := Ideal)) (k1_pay5 (F := Ideal)) (ix2 p (0 : Fin 1)) = AttnSpec.l1 Q K i :=
    den_of Q K 0 i q0 k0 (k1_pay4 (F := Ideal)) (k1_pay5 (F := Ideal)) p hq0 hk0 ⊥ 0 (pay4_apply ..) (pay5_apply ..)
  have ha1 : ∀ d, k1_pay1 (k1_pay12 q0 k0 (k1_pay4 (F := Ideal)) v0 (k1_pay6 (F := Ideal))) (ix2 p d) = AttnSpec.acc1 Q K W i d := fun d => by
    rw [pay1_eq]
    exact num_of Q K W 0 i q0 k0 v0 (k1_pay4 (F := Ideal)) (k1_pay6 (F := Ideal)) p hq0 hk0 hv0 ⊥ (fun _ => 0) (pay4_apply ..) (fun d => pay6_apply ..) d
  have hl2 : k1_pay11 q1 k1 (k1_pay2 (k1_pay8 q0 k0 (k1_pay4 (F := Ideal)))) (k1_pay11 q0 k0 (k1_pay4 (F := Ideal)) (k1_pay5 (F := Ideal))) (ix2 p (0 : Fin 1))
      = AttnSpec.l2 Q K i :=
    den_of Q K 1 i q1 k1 _ _ p hq1 hk1 (AttnSpec.m1 Q K i) (AttnSpec.l1 Q K i) hm1 hl1
  have ha2 : ∀ d, k1_pay1 (k1_pay12 q1 k1 (k1_pay2 (k1_pay8 q0 k0 (k1_pay4 (F := Ideal)))) v1 (k1_pay1 (k1_pay12 q0 k0 (k1_pay4 (F := Ideal)) v0 (k1_pay6 (F := Ideal))))) (ix2 p d)
      = AttnSpec.acc2 Q K W i d := fun d => by
    rw [pay1_eq]
    exact num_of Q K W 1 i q1 k1 v1 _ _ p hq1 hk1 hv1 (AttnSpec.m1 Q K i) (AttnSpec.acc1 Q K W i) hm1 ha1 d
  refine (pay3_apply ..).trans ?_
  unfold AttnSpec.out
  refine congrArg₂ (· + ·) (Finset.sum_congr rfl fun d _ => congrArg₂ (· * ·) ?_ (hwo d h)) (hbo h)
  rw [ha2 d, hl2]
  rfl

end Tile

/-! ## The region's output tile -/

/-- What a block-0 point leaves in the three scratch buffers, as values: the update of the reset state by the point's
    blocks. -/
theorem stA_val (c : Dev nD) (t : Fin cfg1.N) (h0 : t.val % 2 = 0) (h1 : ¬t.val % 2 = 1) :
    (stA (F := Ideal) V c t h0 h1).2
      = (k1_pay2 (k1_pay8 (iblk1 V c 0 t) (iblk1 V c 1 t) (k1_pay4 (F := Ideal))),
         k1_pay11 (iblk1 V c 0 t) (iblk1 V c 1 t) (k1_pay4 (F := Ideal)) (k1_pay5 (F := Ideal)),
         k1_pay1 (k1_pay12 (iblk1 V c 0 t) (iblk1 V c 1 t) (k1_pay4 (F := Ideal)) (iblk1 V c 2 t) (k1_pay6 (F := Ideal)))) := by
  unfold stA
  exact congrArg₂ Prod.mk
    (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))
    (congrArg₂ Prod.mk
      (sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))
      (sout1_A_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)))

/-- What a block-1 point leaves in the output's buffer, as a value of the point's blocks and the carried state. -/
theorem stB_val (c : Dev nD) (t : Fin cfg1.N) (h0 : ¬t.val % 2 = 0) (h1 : t.val % 2 = 1) (P : St Ideal) :
    (stB (F := Ideal) V c t h0 h1 P).1
      = k1_pay3 (k1_pay1 (k1_pay12 (iblk1 V c 0 t) (iblk1 V c 1 t) P.2.1 (iblk1 V c 2 t) P.2.2.2))
          (k1_pay11 (iblk1 V c 0 t) (iblk1 V c 1 t) P.2.1 P.2.2.1) (iblk1 V c 3 t) (iblk1 V c 4 t) := by
  unfold stB
  dsimp only
  exact out1_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) P.2.1 P.2.2.1 P.2.2.2

/-- A block-1 point's state is its update of the state the block-0 point before it left. -/
theorem outsAt1_two (c : Dev nD) (t : Fin cfg1.N) (h0 : ¬t.val % 2 = 0) (h1 : t.val % 2 = 1)
    (hlt : t.val - 1 < cfg1.N) (h0' : (t.val - 1) % 2 = 0) (h1' : ¬(t.val - 1) % 2 = 1) :
    outsAt1 (F := Ideal) V c t.val t.isLt = stB V c t h0 h1 (stA V c ⟨t.val - 1, hlt⟩ h0' h1') := by
  rw [outsAt1_B V c t h0 h1]
  congr 1
  exact outsAt1_A V c ⟨t.val - 1, hlt⟩ h0' h1'

/-- THE TILE: after a block-1 point the output's buffer holds, at `(p, h)`, the attention output of query row
    `512 (t / 2) + p` against all 4096 keys and values, projected and biased. -/
theorem tile_eq (c : Dev nD) (t : Fin cfg1.N) (ht : t.val % 2 = 1) (p : Fin 512) (h : Fin 64) :
    (outsAt1 (F := Ideal) V c t.val t.isLt).1 (ix2 p h)
      = AttnSpec.out (Qa V c) (Ka V c) (Va V c) (V c main_v3) (V c main_arg8)
          ⟨(t.val / 2) * 512 + p.val, by have := t.isLt; have : cfg1.N = 16 := N_1; have := p.isLt; omega⟩ h := by
  have hN : cfg1.N = 16 := N_1
  have htl : t.val < 16 := lt_of_lt_of_eq t.isLt hN
  have h0 : ¬t.val % 2 = 0 := by omega
  have hlt : t.val - 1 < cfg1.N := lt_of_lt_of_eq (by omega : t.val - 1 < 16) hN.symm
  have h0' : (t.val - 1) % 2 = 0 := by omega
  have h1' : ¬(t.val - 1) % 2 = 1 := by omega
  have hp : p.val < 512 := p.isLt
  have hb : t.val / 2 * 512 + p.val < 4096 := by omega
  rw [outsAt1_two V c t h0 ht hlt h0' h1']
  refine (congrFun (stB_val V c t h0 ht (stA V c ⟨t.val - 1, hlt⟩ h0' h1')) (ix2 p h)).trans ?_
  have hq0 : ∀ d, (iblk1 V c 0 ⟨t.val - 1, hlt⟩ : Vec Ideal S512x1024 .bf16) (ix2 p d) = Qa V c ⟨t.val / 2 * 512 + p.val, hb⟩ d :=
    fun d => iblk1_q_apply V c ⟨t.val - 1, hlt⟩ p d ⟨t.val / 2 * 512 + p.val, hb⟩ (by show t.val / 2 * 512 + p.val = (t.val - 1) / 2 * 512 + p.val; omega)
  have hk0 : ∀ j d, (iblk1 V c 1 ⟨t.val - 1, hlt⟩ : Vec Ideal S2048x1024 .bf16) (ix2 j d) = Ka V c (AttnSpec.key 0 j) d :=
    fun j d => iblk1_k_apply V c ⟨t.val - 1, hlt⟩ j d (AttnSpec.key 0 j) (by show 0 * 2048 + j.val = (t.val - 1) % 2 * 2048 + j.val; omega)
  have hv0 : ∀ j d, (iblk1 V c 2 ⟨t.val - 1, hlt⟩ : Vec Ideal S2048x1024 .bf16) (ix2 j d) = Va V c (AttnSpec.key 0 j) d :=
    fun j d => iblk1_v_apply V c ⟨t.val - 1, hlt⟩ j d (AttnSpec.key 0 j) (by show 0 * 2048 + j.val = (t.val - 1) % 2 * 2048 + j.val; omega)
  have hq1 : ∀ d, (iblk1 V c 0 t : Vec Ideal S512x1024 .bf16) (ix2 p d) = Qa V c ⟨t.val / 2 * 512 + p.val, hb⟩ d :=
    fun d => iblk1_q_apply V c t p d ⟨t.val / 2 * 512 + p.val, hb⟩ rfl
  have hk1 : ∀ j d, (iblk1 V c 1 t : Vec Ideal S2048x1024 .bf16) (ix2 j d) = Ka V c (AttnSpec.key 1 j) d :=
    fun j d => iblk1_k_apply V c t j d (AttnSpec.key 1 j) (by show 1 * 2048 + j.val = t.val % 2 * 2048 + j.val; omega)
  have hv1 : ∀ j d, (iblk1 V c 2 t : Vec Ideal S2048x1024 .bf16) (ix2 j d) = Va V c (AttnSpec.key 1 j) d :=
    fun j d => iblk1_v_apply V c t j d (AttnSpec.key 1 j) (by show 1 * 2048 + j.val = t.val % 2 * 2048 + j.val; omega)
  exact tile_of (Qa V c) (Ka V c) (Va V c) (V c main_v3) (V c main_arg8) ⟨t.val / 2 * 512 + p.val, hb⟩
    (iblk1 V c 0 ⟨t.val - 1, hlt⟩) (iblk1 V c 1 ⟨t.val - 1, hlt⟩) (iblk1 V c 2 ⟨t.val - 1, hlt⟩)
    (iblk1 V c 0 t) (iblk1 V c 1 t) (iblk1 V c 2 t) (iblk1 V c 3 t) (iblk1 V c 4 t) p
    hq0 hk0 hv0 hq1 hk1 hv1 (fun d h => iblk1_wo_apply V c t d h) (fun h => iblk1_bo_apply V c t h)
    (stA V c ⟨t.val - 1, hlt⟩ h0' h1').2 (stA_val V c ⟨t.val - 1, hlt⟩ h0' h1') h

end Cert.KernelIdeal.Fr
end
-- ==== Proof.KIResult.lean ====
/-
  The idealized kernel's result array, after the run, is the specification's function of the launch memory: every tile of
  the attention region's output is the specification's output rows (the two-block recurrence read off the scratch
  buffers), the tiles cover the array, and the attention region's three input arrays are the projection region's outputs.
-/
import proofs.«117020_j53815940219243_2_alg».proof.Proof.KIValue
import proofs.«117020_j53815940219243_2_alg».proof.Proof.KIRegion1Value

noncomputable section

namespace Cert.KernelIdeal.Fr

open Cert.KernelIdeal Cert.KernelIdeal.Gen
open Idealize.ShloMosaic Idealize.ShloMosaic.TcCoe Idealize.SL.Sem

theorem result_eq (m : (ℓ : Loc nD τ sig) → Buf (Elt Ideal) ℓ) (ρ : Dev nD → PrngReg) (c : Dev nD) :
    (dat1 (F := Ideal) (V2 m ρ) c).arrAt 5 cfg1.N
      = AttnSpec.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
  result_eq_of m ρ c (fun t ht p h => tile_eq (V2 m ρ) c t ht p h)

end Cert.KernelIdeal.Fr

end
-- ==== Proof.SpecRef.lean ====
/-
  The same attention in the reference's arrangement: a query row meets all 4096 keys at once.

  With the projections `q`, `k`, `v` and the scores `s i j = ∑ d, q i d * k j d` of the specification, the row
  maximum `M i` is the greatest of the 4096 scores of row `i`, taken from `-∞` (and once more against `-∞`); every
  score is shifted by it and exponentiated, `e i j = exp (s i j - M i)`; the row sum is `L i = ∑ j, e i j`; the
  weight of key `j` is `e i j / L i`, divided by eight; the attended row is `∑ j, weight i j * v j d`, and the result
  is its image under `Wo` plus the bias `bo`.
-/
import proofs.«117020_j53815940219243_2_alg».proof.Proof.Spec

noncomputable section

open scoped BigOperators

namespace AttnSpec

open Idealize.ShloMosaic Idealize.ShloMosaic.ValueIdx

section Row

variable (q k v : Fin 4096 → Fin 1024 → EReal)

/-- The greatest score of row `i` over all the keys, from `-∞`, and once more against `-∞`. -/
def rowMax (i : Fin 4096) : EReal :=
  max (⊥ : EReal) ((Finset.univ : Finset (Fin 4096)).fold max (⊥ : EReal) (fun j => score q k i j))

/-- The shifted exponential of the score of row `i` against key `j`. -/
def rowExp (i j : Fin 4096) : EReal := Ideal.exp (score q k i j - rowMax q k i)

/-- The sum of the shifted exponentials of row `i`. -/
def rowSum (i : Fin 4096) : EReal := ∑ j : Fin 4096, rowExp q k i j

/-- The weight of key `j` in row `i`: the softmax weight, divided by eight. -/
def weight (i j : Fin 4096) : EReal := Ideal.div (Ideal.div (rowExp q k i j) (rowSum q k i)) ((8 : ℝ) : EReal)

/-- The attended row in the reference's arrangement. -/
def zr (i : Fin 4096) (d : Fin 1024) : EReal := ∑ j : Fin 4096, weight q k i j * v j d

end Row

/-- The output entry `(i, h)` in the reference's arrangement. -/
def outr (q k v : Fin 4096 → Fin 1024 → EReal) (Wo : Arr2 1024 64) (bo : Arr1 64) (i : Fin 4096) (h : Fin 64) : EReal :=
  (∑ d : Fin 1024, zr q k v i d * Wo (ix2 d h)) + bo (ix1 h)

/-- THE REFERENCE'S FUNCTION of the nine argument arrays, in the reference's arrangement. -/
def Gr (x : Arr2 4096 1024) (Wq : Arr2 1024 1024) (bq : Arr1 1024) (Wk : Arr2 1024 1024) (bk : Arr1 1024)
    (Wv : Arr2 1024 1024) (bv : Arr1 1024) (Wo : Arr2 1024 64) (bo : Arr1 64) : Arr2 4096 64 :=
  fun j => outr (proj x Wq bq) (proj x Wk bk) (proj x Wv bv) Wo bo (j 0) (j 1)

theorem Gr_ix2 (x : Arr2 4096 1024) (Wq : Arr2 1024 1024) (bq : Arr1 1024) (Wk : Arr2 1024 1024) (bk : Arr1 1024)
    (Wv : Arr2 1024 1024) (bv : Arr1 1024) (Wo : Arr2 1024 64) (bo : Arr1 64) (i : Fin 4096) (h : Fin 64) :
    Gr x Wq bq Wk bk Wv bv Wo bo (ix2 i h) = outr (proj x Wq bq) (proj x Wk bk) (proj x Wv bv) Wo bo i h := rfl

end AttnSpec

end
-- ==== Proof.RefSide.lean ====
/-
  The reference program's side: its run and its read-at-an-index lemmas are generated modules; what is proved
  here is that the reference's result, index by index, is the specification's attention formula in the reference's
  arrangement: the three dense layers, the scores, the row maximum from `-∞` (a fold of `max` over the 4096 keys),
  the shifted exponentials, their row sums, the two divisions, and the two products that follow.
-/
import proofs.«117020_j53815940219243_2_alg».proof.Defs
import proofs.«117020_j53815940219243_2_alg».proof.Proof.Gen.ReferenceIdeal.Read
import proofs.«117020_j53815940219243_2_alg».proof.Proof.Gen.Pre_finite_inputs
import proofs.«117020_j53815940219243_2_alg».proof.Proof.SpecRef

noncomputable section

open scoped BigOperators

namespace Cert.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo AttnSpec

/-! ## Indices by their coordinates, and three bit patterns as extended reals -/

/-- A rank-2 index with coordinates `a` and `b` is `ix2 a b`. -/
theorem idx2_eq {n0 n1 : Nat} (j : (⟨2, ![n0, n1]⟩ : Shape).Idx) (a : Fin n0) (b : Fin n1) (h0 : j 0 = a) (h1 : j 1 = b) :
    j = ix2 a b := by
  funext c; match c with | ⟨0, _⟩ => exact h0 | ⟨1, _⟩ => exact h1

/-- A rank-1 index with coordinate `a` is `ix1 a`. -/
theorem idx1_eq {n : Nat} (j : (⟨1, ![n]⟩ : Shape).Idx) (a : Fin n) (h0 : j 0 = a) : j = ix1 a := by
  funext c; match c with | ⟨0, _⟩ => exact h0

theorem ofBits_neg_inf : Ideal.ofBits .f32 0xFF800000#32 = (⊥ : EReal) := by simp [Ideal.ofBits, Ideal.ieee]

theorem ofBits_eight : Ideal.ofBits .f32 0x41000000#32 = ((8 : ℝ) : EReal) := by
  simp [Ideal.ofBits, Ideal.ieee, -EReal.coe_mul]; norm_num

/-! ## The operations, read at an index -/

section Read

variable (x0 : (⟨S4096x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x64, .f32⟩ : BufTy).Contents (Elt Ideal))
  (x8 : (⟨S64, .f32⟩ : BufTy).Contents (Elt Ideal))

/-- The query projection at an entry. -/
theorem q_read (i : S4096x1024.Idx) : val_main_v3 (F := Ideal) x0 x1 x2 i = proj x0 x1 x2 (i 0) (i 1) := by
  rw [val_main_v3_apply, val_main_v0_apply, val_main_v2_apply, val_main_v1_apply]
  show (∑ c : Fin 1024, x0 (lidx_main_v0 i c) * x1 (ridx_main_v0 i c)) + x2 (idx_main_v1 (idx_main_v2 i)) = _
  unfold proj
  exact congrArg₂ (· + ·)
    (Finset.sum_congr rfl fun c _ => congrArg₂ (· * ·) (congrArg x0 (idx2_eq _ _ _ rfl rfl)) (congrArg x1 (idx2_eq _ _ _ rfl rfl)))
    (congrArg x2 (idx1_eq _ _ rfl))

/-- The key projection at an entry. -/
theorem k_read (i : S4096x1024.Idx) : val_main_v7 (F := Ideal) x0 x3 x4 i = proj x0 x3 x4 (i 0) (i 1) := by
  rw [val_main_v7_apply, val_main_v4_apply, val_main_v6_apply, val_main_v5_apply]
  show (∑ c : Fin 1024, x0 (lidx_main_v4 i c) * x3 (ridx_main_v4 i c)) + x4 (idx_main_v5 (idx_main_v6 i)) = _
  unfold proj
  exact congrArg₂ (· + ·)
    (Finset.sum_congr rfl fun c _ => congrArg₂ (· * ·) (congrArg x0 (idx2_eq _ _ _ rfl rfl)) (congrArg x3 (idx2_eq _ _ _ rfl rfl)))
    (congrArg x4 (idx1_eq _ _ rfl))

/-- The value projection at an entry. -/
theorem v_read (i : S4096x1024.Idx) : val_main_v11 (F := Ideal) x0 x5 x6 i = proj x0 x5 x6 (i 0) (i 1) := by
  rw [val_main_v11_apply, val_main_v8_apply, val_main_v10_apply, val_main_v9_apply]
  show (∑ c : Fin 1024, x0 (lidx_main_v8 i c) * x5 (ridx_main_v8 i c)) + x6 (idx_main_v9 (idx_main_v10 i)) = _
  unfold proj
  exact congrArg₂ (· + ·)
    (Finset.sum_congr rfl fun c _ => congrArg₂ (· * ·) (congrArg x0 (idx2_eq _ _ _ rfl rfl)) (congrArg x5 (idx2_eq _ _ _ rfl rfl)))
    (congrArg x6 (idx1_eq _ _ rfl))

/-- The score of a query row against a key row. -/
theorem score_read (i : S4096x4096.Idx) :
    val_main_v13 (F := Ideal) x0 x1 x2 x3 x4 i = score (proj x0 x1 x2) (proj x0 x3 x4) (i 0) (i 1) := by
  rw [val_main_v13_apply]
  unfold score
  refine Finset.sum_congr rfl fun d _ => ?_
  rw [q_read, val_main_v12_apply, k_read]
  rfl

/-- The reduced index `i` with key `k` put back on the dropped axis is `(i, k)`. -/
theorem lift_read (h : S4096x4096.Reduces [1] S4096) (i : S4096.Idx) (k : Fin (S4096x4096.size 1)) :
    h.lift i k = ix2 (i 0) (⟨k.val, k.isLt⟩ : Fin 4096) :=
  idx2_eq _ _ _ (Fin.ext rfl) (Fin.ext rfl)

/-- The row maximum: the host's reduce with a maximum body from `-∞` over the keys, then once more against `-∞`. -/
theorem max_read (i : S4096.Idx) :
    val_main_v16 (F := Ideal) x0 x1 x2 x3 x4 i = rowMax (proj x0 x1 x2) (proj x0 x3 x4) (i 0) := by
  have h : S4096x4096.Reduces [1] S4096 := by decide
  rw [val_main_v16_apply, val_main_v15_apply, val_main_cst_0_apply]
  unfold val_main_v14
  rw [Host.reduce_eq_fold_single FloatOps.maximumf _ _ reducesTo_S4096x4096_S4096_d1 h h_S_]
  unfold rowMax
  show max (Ideal.ofBits .f32 0xFF800000#32) ((Finset.univ : Finset (Fin 4096)).fold max (Ideal.ofBits .f32 0xFF800000#32)
    (val_main_v13 (F := Ideal) x0 x1 x2 x3 x4 ∘ h.lift i)) = _
  rw [ofBits_neg_inf]
  refine congrArg (max ⊥) (congrArg (fun f => (Finset.univ : Finset (Fin 4096)).fold max (⊥ : EReal) f) (funext fun k => ?_))
  show val_main_v13 (F := Ideal) x0 x1 x2 x3 x4 (h.lift i k) = _
  rw [score_read, lift_read]
  rfl

/-- The shifted exponential. -/
theorem exp_read (i : S4096x4096.Idx) :
    val_main_v20 (F := Ideal) x0 x1 x2 x3 x4 i = rowExp (proj x0 x1 x2) (proj x0 x3 x4) (i 0) (i 1) := by
  rw [val_main_v20_apply, val_main_v19_apply, score_read, val_main_v18_apply, val_main_v17_apply, max_read]
  rfl

/-- The row sum of the shifted exponentials (from the constant zero). -/
theorem sum_read (i : S4096.Idx) :
    val_main_v21 (F := Ideal) x0 x1 x2 x3 x4 i = rowSum (proj x0 x1 x2) (proj x0 x3 x4) (i 0) := by
  rw [val_main_v21_apply, val_main_cst_1_apply]
  show Ideal.ofBits .f32 0x00000000#32 + _ = _
  rw [Ideal.ofBits_zero_f32, zero_add]
  unfold rowSum
  refine Finset.sum_congr rfl fun j _ => ?_
  rw [exp_read]
  rfl

/-- The weight: the exponential over the row sum, over the constant eight. -/
theorem weight_read (i : S4096x4096.Idx) :
    val_main_v26 (F := Ideal) x0 x1 x2 x3 x4 i = weight (proj x0 x1 x2) (proj x0 x3 x4) (i 0) (i 1) := by
  rw [val_main_v26_apply, val_main_v24_apply, exp_read, val_main_v23_apply, val_main_v22_apply, sum_read,
    val_main_v25_apply, val_main_cst_2_apply]
  show Ideal.div (Ideal.div _ _) (Ideal.ofBits .f32 0x41000000#32) = _
  rw [ofBits_eight]
  rfl

/-- The attended row. -/
theorem z_read (i : S4096x1024.Idx) :
    val_main_v27 (F := Ideal) x0 x1 x2 x3 x4 x5 x6 i
      = zr (proj x0 x1 x2) (proj x0 x3 x4) (proj x0 x5 x6) (i 0) (i 1) := by
  rw [val_main_v27_apply]
  unfold zr
  refine Finset.sum_congr rfl fun j _ => ?_
  rw [weight_read, v_read]
  rfl

/-- The result at an index. -/
theorem out_read (i : S4096x64.Idx) :
    val_main_v31 (F := Ideal) x0 x1 x2 x3 x4 x5 x6 x7 x8 i = Gr x0 x1 x2 x3 x4 x5 x6 x7 x8 i := by
  rw [val_main_v31_apply, val_main_v28_apply, val_main_v30_apply, val_main_v29_apply]
  show (∑ d : Fin 1024, val_main_v27 (F := Ideal) x0 x1 x2 x3 x4 x5 x6 (lidx_main_v28 i d) * x7 (ridx_main_v28 i d))
    + x8 (idx_main_v29 (idx_main_v30 i)) = outr (proj x0 x1 x2) (proj x0 x3 x4) (proj x0 x5 x6) x7 x8 (i 0) (i 1)
  unfold outr
  refine congrArg₂ (· + ·) (Finset.sum_congr rfl fun d _ => ?_) (congrArg x8 (idx1_eq _ _ rfl))
  rw [z_read]
  exact congrArg₂ (· * ·) rfl (congrArg x7 (idx2_eq _ _ _ rfl rfl))

end Read

/-! ## The reference's result, and its frame -/

/-- THE REFERENCE'S RESULT is the attention in the reference's arrangement, of the nine argument arrays. -/
theorem ref_eq_Gr (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v31 (F := Ideal) m c
      = Gr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v31_eq m c).trans (funext fun i => out_read _ _ _ _ _ _ _ _ _ i)

/-- The reference runs and leaves its arguments unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.RefSide

end
-- ==== Proof.LibOnlineSoftmax.lean ====
/-
  Online softmax on the extended reals, one query row and one output column at a time.

  A row of attention logits `s k` (finite reals) weighs values `v k`. The textbook result is
  `∑ k, (exp (s k - M) / ∑ j, exp (s j - M)) * v k` for any shift `M` (the weights do not depend on it).
  A blocked kernel never forms the whole row: it carries a shift `m`, a denominator
  `l = ∑ k ∈ seen, exp (s k - m)` and a numerator `a = ∑ k ∈ seen, exp (s k - m) * v k`, and on a new block
  moves to a new shift `μ` by `l' = exp (m - μ) * l + ∑ k ∈ block, exp (s k - μ)` (the same for `a`), starting
  from `m = -∞`, `l = 0`, `a = 0`. Which shift is carried is immaterial for the value: every finite `μ` gives
  the same quotient `a / l`. The laws below say so, first on the reals, then for the extended-real operations
  (`Ideal.exp`, `Ideal.div`, EReal's `+`, `*`, `-`) on finite arguments.
-/
import Idealize.ShloMosaic.PureOps.Ideal
import Mathlib.Analysis.SpecialFunctions.Exp

noncomputable section

namespace OnlineSoftmax

open Idealize.ShloMosaic

/-! ## On the reals -/

section Real

variable {K : Type*} [Fintype K]

/-- Moving a block's weighted sum from the shift `m` to the shift `μ` is one factor `exp (m - μ)`. -/
theorem rescale (m μ : ℝ) (s w : K → ℝ) :
    Real.exp (m - μ) * ∑ k, Real.exp (s k - m) * w k = ∑ k, Real.exp (s k - μ) * w k := by
  rw [Finset.mul_sum]
  refine Finset.sum_congr rfl fun k _ => ?_
  rw [← mul_assoc, ← Real.exp_add]
  congr 2; ring

/-- The same without weights. -/
theorem rescale_one (m μ : ℝ) (s : K → ℝ) :
    Real.exp (m - μ) * ∑ k, Real.exp (s k - m) = ∑ k, Real.exp (s k - μ) := by
  have := rescale m μ s (fun _ => (1 : ℝ))
  simpa using this

/-- A sum of exponentials over a nonempty index type is positive. -/
theorem sum_exp_pos [Nonempty K] (μ : ℝ) (s : K → ℝ) : 0 < ∑ k, Real.exp (s k - μ) :=
  Finset.sum_pos (fun k _ => Real.exp_pos _) Finset.univ_nonempty

/-- The softmax-weighted sum does not depend on the shift: the quotient of the carried numerator by the carried
    denominator at any shift `μ` is the textbook weighted sum at any shift `M`. -/
theorem quotient_eq [Nonempty K] (μ M : ℝ) (s v : K → ℝ) :
    (∑ k, Real.exp (s k - μ) * v k) / (∑ j, Real.exp (s j - μ))
      = ∑ k, Real.exp (s k - M) / (∑ j, Real.exp (s j - M)) * v k := by
  have hμ : (∑ j, Real.exp (s j - μ)) ≠ 0 := (sum_exp_pos μ s).ne'
  have hM : (∑ j, Real.exp (s j - M)) ≠ 0 := (sum_exp_pos M s).ne'
  rw [← rescale M μ s v, ← rescale_one M μ s, mul_div_mul_left _ _ (Real.exp_pos _).ne', Finset.sum_div]
  refine Finset.sum_congr rfl fun k _ => ?_
  ring

end Real

/-! ## On the extended reals -/

section EReal

variable {K : Type*} [Fintype K]

/-- The coercion of a finite sum of reals is the sum of the coercions. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- `exp` of a difference of finite values. -/
theorem exp_sub_coe (x y : ℝ) : Ideal.exp ((x : EReal) - (y : EReal)) = ((Real.exp (x - y) : ℝ) : EReal) := by
  rw [← EReal.coe_sub]; rfl

/-- `exp (-∞ - y) = 0` for finite `y`: the factor the first block rescales the empty state by. -/
theorem exp_bot_sub_coe (y : ℝ) : Ideal.exp ((⊥ : EReal) - (y : EReal)) = 0 := by
  rw [EReal.bot_sub]; rfl

/-- The first block: from the empty state (`-∞`, `0`) the carried sum is the block's own. -/
theorem first_block (y : ℝ) (X : EReal) : Ideal.exp ((⊥ : EReal) - (y : EReal)) * 0 + X = X := by
  rw [exp_bot_sub_coe, mul_zero, zero_add]

/-- A block's sum of exponentials, on the extended reals, is the coercion of the real sum. -/
theorem sum_exp_coe (μ : ℝ) (s : K → ℝ) :
    ∑ k, Ideal.exp ((s k : EReal) - (μ : EReal)) = ((∑ k, Real.exp (s k - μ) : ℝ) : EReal) := by
  rw [coe_sum]; exact Finset.sum_congr rfl fun k _ => exp_sub_coe _ _

/-- A block's weighted sum of exponentials is the coercion of the real sum. -/
theorem sum_exp_mul_coe (μ : ℝ) (s v : K → ℝ) :
    ∑ k, Ideal.exp ((s k : EReal) - (μ : EReal)) * (v k : EReal) = ((∑ k, Real.exp (s k - μ) * v k : ℝ) : EReal) := by
  rw [coe_sum]; exact Finset.sum_congr rfl fun k _ => by rw [exp_sub_coe, ← EReal.coe_mul]

/-- One step of the recurrence for a finite carried state: rescaling the carried sum `L` (at shift `m`) to the
    shift `μ` and adding a finite block sum `B` stays finite. -/
theorem step_coe (m μ L B : ℝ) :
    Ideal.exp ((m : EReal) - (μ : EReal)) * (L : EReal) + (B : EReal) = ((Real.exp (m - μ) * L + B : ℝ) : EReal) := by
  rw [exp_sub_coe, ← EReal.coe_mul, ← EReal.coe_add]

/-- The final quotient of finite carried values with a nonzero denominator. -/
theorem div_coe_coe (A L : ℝ) (hL : L ≠ 0) : Ideal.div (A : EReal) (L : EReal) = ((A / L : ℝ) : EReal) := by
  rw [Ideal.div_coe hL, ← EReal.coe_mul]; congr 1; ring

/-- The maximum of two finite values is finite. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum with `-∞` is the other value. -/
theorem max_bot_coe (y : ℝ) : max (⊥ : EReal) (y : EReal) = (y : EReal) := max_eq_right bot_le

end EReal

/-! ## Two blocks against the whole row -/

section TwoBlocks

variable {K₁ K₂ : Type*} [Fintype K₁] [Fintype K₂] [Nonempty K₁]

/-- TWO BLOCKS. A row split into a first block (`s₁`, `v₁`) and a second (`s₂`, `v₂`), the first carried at any
    finite shift `m` from the empty state, the second taken at any finite shift `μ`: the quotient of the carried
    numerator by the carried denominator is the textbook softmax-weighted sum of the whole row at any shift `M`,
    all on the extended reals. -/
theorem two_blocks (m μ M : ℝ) (s₁ v₁ : K₁ → ℝ) (s₂ v₂ : K₂ → ℝ) :
    Ideal.div
        (Ideal.exp ((m : EReal) - (μ : EReal))
            * (Ideal.exp ((⊥ : EReal) - (m : EReal)) * 0 + ∑ k, Ideal.exp ((s₁ k : EReal) - (m : EReal)) * (v₁ k : EReal))
          + ∑ k, Ideal.exp ((s₂ k : EReal) - (μ : EReal)) * (v₂ k : EReal))
        (Ideal.exp ((m : EReal) - (μ : EReal))
            * (Ideal.exp ((⊥ : EReal) - (m : EReal)) * 0 + ∑ k, Ideal.exp ((s₁ k : EReal) - (m : EReal)))
          + ∑ k, Ideal.exp ((s₂ k : EReal) - (μ : EReal)))
      = (((∑ k, Real.exp (s₁ k - M) / ((∑ j, Real.exp (s₁ j - M)) + ∑ j, Real.exp (s₂ j - M)) * v₁ k)
          + ∑ k, Real.exp (s₂ k - M) / ((∑ j, Real.exp (s₁ j - M)) + ∑ j, Real.exp (s₂ j - M)) * v₂ k : ℝ) : EReal) := by
  rw [first_block, first_block, sum_exp_mul_coe, sum_exp_coe, sum_exp_mul_coe, sum_exp_coe, step_coe, step_coe,
    rescale, rescale_one]
  have hpos : 0 < (∑ k, Real.exp (s₁ k - μ)) + ∑ k, Real.exp (s₂ k - μ) :=
    add_pos_of_pos_of_nonneg (sum_exp_pos μ s₁) (Finset.sum_nonneg fun k _ => (Real.exp_pos _).le)
  rw [div_coe_coe _ _ hpos.ne']
  congr 1
  -- the whole row as one sum over the disjoint union of the two blocks
  have key := quotient_eq (K := K₁ ⊕ K₂) μ M (Sum.elim s₁ s₂) (Sum.elim v₁ v₂)
  simpa [Fintype.sum_sum_type] using key

end TwoBlocks

end OnlineSoftmax

end
-- ==== Proof.LibFoldMax.lean ====
/-
  The greatest of finitely many finite values is finite: a fold of `max` over coerced reals, from a coerced real or
  from `-∞` over a nonempty index set, is a coerced real (which real is immaterial to a softmax: every finite shift
  gives the same weights).
-/
import Mathlib.Data.EReal.Basic
import Mathlib.Data.Finset.Fold
import Mathlib.Analysis.SpecialFunctions.Exp

namespace FoldMax

/-- From `-∞`: nothing folded gives `-∞`, anything folded gives a finite value. -/
theorem fold_bot {ι : Type*} [DecidableEq ι] (S : Finset ι) (s : ι → ℝ) :
    (S = ∅ ∧ S.fold max (⊥ : EReal) (fun k => ((s k : ℝ) : EReal)) = ⊥)
      ∨ ∃ μ : ℝ, S.fold max (⊥ : EReal) (fun k => ((s k : ℝ) : EReal)) = (μ : EReal) := by
  induction S using Finset.induction_on with
  | empty => exact Or.inl ⟨rfl, Finset.fold_empty⟩
  | insert a S ha ih =>
    right
    rw [Finset.fold_insert ha]
    rcases ih with ⟨_, h⟩ | ⟨μ, h⟩
    · exact ⟨s a, by rw [h]; exact max_eq_left bot_le⟩
    · refine ⟨max (s a) μ, ?_⟩
      rw [h]
      rcases le_total (s a) μ with hle | hle
      · rw [max_eq_right hle, max_eq_right (EReal.coe_le_coe_iff.mpr hle)]
      · rw [max_eq_left hle, max_eq_left (EReal.coe_le_coe_iff.mpr hle)]

/-- Over a whole nonempty index type, from `-∞`. -/
theorem univ_bot {n : ℕ} (hn : 0 < n) (s : Fin n → ℝ) :
    ∃ μ : ℝ, (Finset.univ : Finset (Fin n)).fold max (⊥ : EReal) (fun k => ((s k : ℝ) : EReal)) = (μ : EReal) := by
  rcases fold_bot Finset.univ s with ⟨h, _⟩ | h
  · exact absurd h (Finset.univ_nonempty_iff.mpr ⟨⟨0, hn⟩⟩).ne_empty
  · exact h

end FoldMax
-- ==== Proof.Math.lean ====
/-
  The kernel's arrangement and the reference's arrangement of the attention agree on finite inputs.

  With every entry of the nine arrays a real number, the projections `q`, `k`, `v` are real (finite sums of products of
  reals plus a real), so every score is real, and the greatest of finitely many reals is a real: the two block maxima,
  the carried maxima and the whole row's maximum are all finite. The kernel's state after its two blocks of 2048 keys
  is then the two-block online recurrence at finite shifts, whose quotient is the softmax-weighted sum of the whole
  row at ANY finite shift, in particular at the reference's row maximum. The 4096 keys are the first block followed by
  the second, so the reference's sums over all keys split into the two blocks' sums; and multiplying the quotient by one
  eighth is dividing each weight by eight, a finite sum distributing over the factor.
-/
import proofs.«117020_j53815940219243_2_alg».proof.Proof.SpecRef
import proofs.«117020_j53815940219243_2_alg».proof.Proof.LibOnlineSoftmax
import proofs.«117020_j53815940219243_2_alg».proof.Proof.LibFoldMax

noncomputable section

open scoped BigOperators

namespace AttnSpec

open Idealize.ShloMosaic Idealize.ShloMosaic.ValueIdx OnlineSoftmax

/-! ## The keys are the first block followed by the second -/

theorem key_zero (j : Fin 2048) : key 0 j = Fin.castAdd 2048 j := Fin.ext (by simp [key])

theorem key_one (j : Fin 2048) : key 1 j = Fin.natAdd 2048 j := Fin.ext (by simp [key]; omega)

/-- A sum over all 4096 keys is the first block's sum plus the second block's. -/
theorem sum_key {α : Type*} [AddCommMonoid α] (f : Fin 4096 → α) :
    ∑ j : Fin 4096, f j = (∑ j : Fin 2048, f (key 0 j)) + ∑ j : Fin 2048, f (key 1 j) := by
  have h := Fin.sum_univ_add (a := 2048) (b := 2048) (f : Fin (2048 + 2048) → α)
  simp only [key_zero, key_one]
  exact h

/-! ## Finite inputs give finite projections and finite scores -/

/-- A dense layer of real arrays, read at an entry, is a real. -/
theorem proj_coe (x : Arr2 4096 1024) (W : Arr2 1024 1024) (b : Arr1 1024)
    (xr : (⟨2, ![4096, 1024]⟩ : Shape).Idx → ℝ) (Wr : (⟨2, ![1024, 1024]⟩ : Shape).Idx → ℝ) (br : (⟨1, ![1024]⟩ : Shape).Idx → ℝ)
    (hx : ∀ j, x j = (xr j : EReal)) (hW : ∀ j, W j = (Wr j : EReal)) (hb : ∀ j, b j = (br j : EReal))
    (i : Fin 4096) (d : Fin 1024) :
    proj x W b i d = (((∑ c : Fin 1024, xr (ix2 i c) * Wr (ix2 c d)) + br (ix1 d) : ℝ) : EReal) := by
  unfold proj
  rw [EReal.coe_add, coe_sum, hb]
  exact congrArg (· + _) (Finset.sum_congr rfl fun c _ => by rw [hx, hW, EReal.coe_mul])

/-- The real score of row `i` against key `j`. -/
def scoreR (qr kr : Fin 4096 → Fin 1024 → ℝ) (i j : Fin 4096) : ℝ := ∑ d : Fin 1024, qr i d * kr j d

theorem score_coe (q k : Fin 4096 → Fin 1024 → EReal) (qr kr : Fin 4096 → Fin 1024 → ℝ)
    (hq : ∀ i d, q i d = (qr i d : EReal)) (hk : ∀ i d, k i d = (kr i d : EReal)) (i j : Fin 4096) :
    score q k i j = ((scoreR qr kr i j : ℝ) : EReal) := by
  unfold score scoreR
  rw [coe_sum]
  exact Finset.sum_congr rfl fun d _ => by rw [hq, hk, EReal.coe_mul]

/-! ## One attended entry -/

/-- THE TWO ARRANGEMENTS OF A ROW. With real projections, the kernel's two-block online quotient scaled by one eighth
    is the reference's whole-row weighted sum with each weight divided by eight. -/
theorem z_eq_zr (q k v : Fin 4096 → Fin 1024 → EReal) (qr kr vr : Fin 4096 → Fin 1024 → ℝ)
    (hq : ∀ i d, q i d = (qr i d : EReal)) (hk : ∀ i d, k i d = (kr i d : EReal)) (hv : ∀ i d, v i d = (vr i d : EReal))
    (i : Fin 4096) (d : Fin 1024) : z q k v i d = zr q k v i d := by
  haveI : Nonempty (Fin 2048) := ⟨⟨0, by norm_num⟩⟩
  haveI : Nonempty (Fin 4096) := ⟨⟨0, by norm_num⟩⟩
  have hs : ∀ a b, score q k a b = ((scoreR qr kr a b : ℝ) : EReal) := score_coe q k qr kr hq hk
  -- the three maxima are finite
  obtain ⟨μ0, h0⟩ := FoldMax.univ_bot (n := 2048) (by norm_num) (fun j => scoreR qr kr i (key 0 j))
  obtain ⟨μ1, h1⟩ := FoldMax.univ_bot (n := 2048) (by norm_num) (fun j => scoreR qr kr i (key 1 j))
  obtain ⟨M, hM0⟩ := FoldMax.univ_bot (n := 4096) (by norm_num) (fun j => scoreR qr kr i j)
  have hb0 : blockMax q k 0 i = (μ0 : EReal) :=
    (congrArg (fun f => (Finset.univ : Finset (Fin 2048)).fold max (⊥ : EReal) f) (funext fun j => hs i (key 0 j))).trans h0
  have hb1 : blockMax q k 1 i = (μ1 : EReal) :=
    (congrArg (fun f => (Finset.univ : Finset (Fin 2048)).fold max (⊥ : EReal) f) (funext fun j => hs i (key 1 j))).trans h1
  have hm1 : m1 q k i = (μ0 : EReal) := by unfold m1; rw [hb0]; exact max_bot_coe μ0
  have hm2 : m2 q k i = ((max μ0 μ1 : ℝ) : EReal) := by unfold m2; rw [hm1, hb1]; exact max_coe μ0 μ1
  have hM : rowMax q k i = (M : EReal) := by
    unfold rowMax
    rw [(congrArg (fun f => (Finset.univ : Finset (Fin 4096)).fold max (⊥ : EReal) f) (funext fun j => hs i j)).trans hM0]
    exact max_bot_coe M
  -- the reference's side, on the reals
  have he : ∀ j, rowExp q k i j = ((Real.exp (scoreR qr kr i j - M) : ℝ) : EReal) := fun j => by
    unfold rowExp; rw [hs, hM]; exact exp_sub_coe _ _
  have hL : rowSum q k i = ((∑ j : Fin 4096, Real.exp (scoreR qr kr i j - M) : ℝ) : EReal) := by
    unfold rowSum; rw [coe_sum]; exact Finset.sum_congr rfl fun j _ => he j
  have hLpos : 0 < ∑ j : Fin 4096, Real.exp (scoreR qr kr i j - M) := sum_exp_pos M _
  have hw : ∀ j, weight q k i j
      = ((Real.exp (scoreR qr kr i j - M) / (∑ j' : Fin 4096, Real.exp (scoreR qr kr i j' - M)) / 8 : ℝ) : EReal) := fun j => by
    unfold weight; rw [he, hL, div_coe_coe _ _ hLpos.ne', div_coe_coe _ _ (by norm_num)]
  have hzr : zr q k v i d
      = ((∑ j : Fin 4096, Real.exp (scoreR qr kr i j - M) / (∑ j' : Fin 4096, Real.exp (scoreR qr kr i j' - M)) / 8 * vr j d : ℝ) : EReal) := by
    unfold zr; rw [coe_sum]; exact Finset.sum_congr rfl fun j _ => by rw [hw, hv, EReal.coe_mul]
  -- the kernel's side: the two-block recurrence at the shifts μ0 and max μ0 μ1, read at the shift M
  rw [hzr]
  unfold z acc2 l2 acc1 l1 a2 a1
  rw [hm2, hm1]
  simp only [hs, hv]
  refine (congrArg (· * (((1 / 8 : ℝ) : ℝ) : EReal))
    (two_blocks μ0 (max μ0 μ1) M (fun j => scoreR qr kr i (key 0 j)) (fun j => vr (key 0 j) d)
      (fun j => scoreR qr kr i (key 1 j)) (fun j => vr (key 1 j) d))).trans ?_
  rw [← EReal.coe_mul]
  refine congrArg (fun r : ℝ => (r : EReal)) ?_
  -- the real identity
  have hS : (∑ j : Fin 4096, Real.exp (scoreR qr kr i j - M))
      = (∑ j : Fin 2048, Real.exp (scoreR qr kr i (key 0 j) - M)) + ∑ j : Fin 2048, Real.exp (scoreR qr kr i (key 1 j) - M) :=
    sum_key (fun j => Real.exp (scoreR qr kr i j - M))
  rw [sum_key (fun j => Real.exp (scoreR qr kr i j - M) / (∑ j' : Fin 4096, Real.exp (scoreR qr kr i j' - M)) / 8 * vr j d),
    hS, add_mul, Finset.sum_mul, Finset.sum_mul]
  exact congrArg₂ (· + ·) (Finset.sum_congr rfl fun j _ => by ring) (Finset.sum_congr rfl fun j _ => by ring)

/-! ## The whole result -/

/-- THE KERNEL'S ARRANGEMENT IS THE REFERENCE'S on finite inputs. -/
theorem Gk_eq_Gr (x : Arr2 4096 1024) (Wq : Arr2 1024 1024) (bq : Arr1 1024) (Wk : Arr2 1024 1024) (bk : Arr1 1024)
    (Wv : Arr2 1024 1024) (bv : Arr1 1024) (Wo : Arr2 1024 64) (bo : Arr1 64)
    (hfin : Finite x Wq bq Wk bk Wv bv Wo bo) :
    Gk x Wq bq Wk bk Wv bv Wo bo = Gr x Wq bq Wk bk Wv bv Wo bo := by
  obtain ⟨hx, hWq, hbq, hWk, hbk, hWv, hbv, -, -⟩ := hfin
  choose xr hx using hx
  choose Wqr hWq using hWq
  choose bqr hbq using hbq
  choose Wkr hWk using hWk
  choose bkr hbk using hbk
  choose Wvr hWv using hWv
  choose bvr hbv using hbv
  funext j
  show out (proj x Wq bq) (proj x Wk bk) (proj x Wv bv) Wo bo (j 0) (j 1)
    = outr (proj x Wq bq) (proj x Wk bk) (proj x Wv bv) Wo bo (j 0) (j 1)
  unfold out outr
  refine congrArg (· + _) (Finset.sum_congr rfl fun d _ => congrArg (· * _) ?_)
  exact z_eq_zr _ _ _ _ _ _ (proj_coe x Wq bq xr Wqr bqr hx hWq hbq) (proj_coe x Wk bk xr Wkr bkr hx hWk hbk)
    (proj_coe x Wv bv xr Wvr bvr hx hWv hbv) (j 0) d

end AttnSpec

end
-- ==== Proof.PreFinite.lean ====
/-
  The precondition read back: every entry of the nine argument arrays is a real number.

  The printed predicate is the conjunction, over the nine arrays, of `all (|x| < +∞)`: each conjunct is a reduce by
  `and`, from the constant 1, of the elementwise comparison of `max x (-x)` with the pattern of `+∞`. The conjunction
  being 1 makes each conjunct 1; a reduce by `and` over every axis that is 1 had a 1 at every element; and an extended
  real `x` with `max x (-x) < ⊤` is neither `⊤` nor `⊥`, so it is a real.
-/
import proofs.«117020_j53815940219243_2_alg».proof.Pre_finite_inputs
import proofs.«117020_j53815940219243_2_alg».proof.Proof.Spec
import Idealize.ShloMosaic.Lib.ReduceAll

noncomputable section

namespace Cert.PreFinite

open Cert.Pre_finite_inputs Idealize.ShloMosaic

/-- The scalar shape has one index. -/
instance : Subsingleton S_.Idx := ⟨fun a b => funext fun d => d.elim0⟩

/-- The f32 pattern `0x7F800000` is `+∞`. -/
theorem ofBits_pos_inf : Ideal.ofBits .f32 0x7F800000#32 = (⊤ : EReal) := by simp [Ideal.ofBits, Ideal.ieee]

/-- An extended real whose absolute value compares below `+∞` is a real. -/
theorem real_of_abs_lt_inf (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

/-- One conjunct: `all (|x| < +∞)` being 1 makes every entry of `x` a real. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (j : s.Idx) : ∃ r : ℝ, x j = (r : EReal) :=
  real_of_abs_lt_inf (x j) (Host.reduce_andi_all _ _ hr hu ValueIdx.ix0 e j)

variable [Cert.Pre_finite_inputs.Facts]

/-- THE PRECONDITION DECODED: all nine arrays are finite. -/
theorem finite_of_pre (a0 : FVec Ideal S4096x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (a7 : FVec Ideal S1024x64 .f32) (a8 : FVec Ideal S64 .f32)
    (h : Cert.Pre_finite_inputs.fn (F := Ideal) a0 a1 a2 a3 a4 a5 a6 a7 a8 = fun _ => 1#1) :
    AttnSpec.Finite a0 a1 a2 a3 a4 a5 a6 a7 a8 := by
  have e := congrFun h ValueIdx.ix0
  dsimp only [fn, fn_part1, fn_part2] at e
  simp only [andi, IntOp.andi_eq_one] at e
  obtain ⟨⟨⟨⟨⟨⟨⟨⟨e0, e1⟩, e2⟩, e3⟩, e4⟩, e5⟩, e6⟩, e7⟩, e8⟩ := e
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7, all_real a8 _ _ _ e8⟩

end Cert.PreFinite

end
-- ==== Proof.lean ====
/-
  The certificate of a two-stage attention kernel against its one-pass reference.

  The kernel program rounds the four weight matrices to bf16 on the host, projects every row of `x` to queries, keys and
  values in a first pallas_call, and in a second one sweeps, for each tile of 512 query rows, the 4096 keys in two
  blocks of 2048, carrying a running maximum, a running denominator and a running numerator in scratch buffers; after the
  second block it divides, scales by one eighth, and applies the output projection. The reference forms the whole score
  matrix, takes the row softmax, divides by eight, and applies the values and the output projection.

  Frames: each program of the kernel is proved over the several-regions launch theorem from one record per region (the projection region's body run whole; the attention region's body run once per control
  case, its scratch buffers' contents carried in the region's invariant from a block-0 point to the block-1 point after
  it). The reference's frame is its generated run with the result dropped.
  Values, on the extended reals: the kernel's result array is the specification's function `AttnSpec.Gk` of the argument
  arrays (the two regions' arrays read block by block, the online recurrence read off the scratch buffers' contents); the
  reference's result is `AttnSpec.Gr` of them; and on finite inputs the two-block online softmax, divided and scaled, is
  the whole-row softmax divided by eight (every score is then a real number, the running maxima are real, and a sum of
  reals distributes over the division by the real, nonzero denominator).
-/
import proofs.«117020_j53815940219243_2_alg».proof.Defs
import proofs.«117020_j53815940219243_2_alg».proof.Proof.Gen.Kernel
import proofs.«117020_j53815940219243_2_alg».proof.Proof.Gen.KernelIdeal
import proofs.«117020_j53815940219243_2_alg».proof.Proof.Gen.ReferenceIdeal
import proofs.«117020_j53815940219243_2_alg».proof.Proof.Gen.Pre_finite_inputs
import proofs.«117020_j53815940219243_2_alg».proof.Proof.KRun
import proofs.«117020_j53815940219243_2_alg».proof.Proof.KIRun
import proofs.«117020_j53815940219243_2_alg».proof.Proof.KIResult
import proofs.«117020_j53815940219243_2_alg».proof.Proof.RefSide
import proofs.«117020_j53815940219243_2_alg».proof.Proof.Math
import proofs.«117020_j53815940219243_2_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Fr.frame (F := Bits) m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The two idealized programs, from memories agreeing on the arguments, end with the same result array: the kernel's is
    `Gk` of the arguments, the reference's `Gr` of them, and the precondition makes every argument entry a real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => AttnSpec.Gk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fr.result_eq m ρ c), (h c).2⟩)
      (Cert.KernelIdeal.Fr.run_result (F := Ideal) m ρ)
  · refine (θ_run Cert.ReferenceIdeal.defs _ _).mono (fun r h c => ⟨(h c).1.trans ?_, (h c).2⟩)
      (Cert.ReferenceIdeal.Value.run (F := Ideal) m' ρ')
    haveI : Cert.Pre_finite_inputs.Facts := Cert.Pre_finite_inputs.Gen.facts
    have hfin := Cert.PreFinite.finite_of_pre _ _ _ _ _ _ _ _ _ (hpre c)
    rw [Cert.RefSide.ref_eq_Gr m' c, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (AttnSpec.Gk_eq_Gr _ _ _ _ _ _ _ _ _ hfin).symm

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
